-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S2000x128 : Shape := ⟨2, ![2000, 128]⟩
abbrev S2000x1 : Shape := ⟨2, ![2000, 1]⟩
abbrev S1650000x128 : Shape := ⟨2, ![1650000, 128]⟩
abbrev S1x128 : Shape := ⟨2, ![1, 128]⟩
abbrev S50000x64 : Shape := ⟨2, ![50000, 64]⟩
abbrev S2000x64 : Shape := ⟨2, ![2000, 64]⟩
abbrev S1650000x64 : Shape := ⟨2, ![1650000, 64]⟩
abbrev S1x64 : Shape := ⟨2, ![1, 64]⟩
abbrev S2000 : Shape := ⟨1, ![2000]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000x128, .bf16⟩
  | .hbm, ⟨38, _⟩ => ⟨S1650000x128, .f32⟩
  | .hbm, ⟨39, _⟩ => ⟨S_, .f32⟩
  | .hbm, ⟨40, _⟩ => ⟨S50000x128, .f32⟩
  | .hbm, ⟨41, _⟩ => ⟨S1650000x1, .i32⟩
  | .hbm, ⟨42, _⟩ => ⟨S50000x128, .f32⟩
  | .hbm, ⟨43, _⟩ => ⟨S1x128, .f32⟩
  | .hbm, ⟨44, _⟩ => ⟨S50000x64, .bf16⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x64, .bf16⟩
  | .hbm, ⟨54, _⟩ => ⟨S1650000x64, .f32⟩
  | .hbm, ⟨55, _⟩ => ⟨S_, .f32⟩
  | .hbm, ⟨56, _⟩ => ⟨S50000x64, .f32⟩
  | .hbm, ⟨57, _⟩ => ⟨S1650000x1, .i32⟩
  | .hbm, ⟨58, _⟩ => ⟨S50000x64, .f32⟩
  | .hbm, ⟨59, _⟩ => ⟨S1x64, .f32⟩
  | .hbm, ⟨60, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S2000x1, .f32⟩
  | .local _ .vmem, ⟨11, _⟩ => ⟨S2000x1, .f32⟩
  | .local _ .vmem, ⟨12, _⟩ => ⟨S128x64, .f32⟩
  | .local _ .vmem, ⟨13, _⟩ => ⟨S2000x64, .bf16⟩
  | .local _ .vmem, ⟨14, _⟩ => ⟨S2000x64, .bf16⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x1, .f32⟩
  | .local _ .vmem, ⟨19, _⟩ => ⟨S2000x1, .f32⟩
  | .local _ .vmem, ⟨20, _⟩ => ⟨S2000x64, .f32⟩
  | .local _ .vmem, ⟨21, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  scatter_S50000_S1650000x1_S1650000_n_0_0_1_wf : ScatterDims.WF S50000 S1650000x1 S1650000 [] [0] [0] 1
  dot_S2000x128_S128x128_S2000x128_1_0_0_1_n_n_wf : DotDims.WF S2000x128 S128x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.Spec.lean ====
/-
  The two-layer graph convolution, as functions of the argument arrays.

  Nodes are the 50000 rows of `x`; the edge list is the 1600000 columns of `edge_index` followed by one self loop per
  node (1650000 edges). `deg n` counts the edges whose destination word lands on node `n`, `dinv n` is
  `deg n ^ (-1/2)` where `deg n > 0` and `0` elsewhere. One layer sends a node matrix `H` to
      out (n, c) = ∑ over the edges e landing on n of  H (row e, c) · dinv (row e) · dinv n   + b c,
  where `row e` is the node the edge's source word picks after jnp's wrap of a negative index. The kernel program
  scales `H`'s rows by `dinv` before the rows are gathered and scales the aggregated sum by `dinv n` afterwards; the
  reference multiplies every gathered row by the edge's `dinv (row e) · dinv (dst e)`. This file fixes the names both
  sides are read against: the host terms that both programs spell (any float instance), and, on the extended reals,
  the whole-array function each pallas_call computes and the reference's chain.
-/
import proofs.«110948_j44968307589409_2_alg».proof.Proof.Gen.KernelIdeal
import proofs.«110948_j44968307589409_2_alg».proof.Proof.LibRowIndex
import Idealize.ShloMosaic.Lib.ValueIdx
import Idealize.ShloMosaic.PureOps.Ideal.Laws

noncomputable section

open scoped BigOperators

namespace Cert.Gcn

open Idealize.ShloMosaic Idealize.ShloMosaic.ValueIdx Cert.KernelIdeal Cert.KernelIdeal.Facts₀ Cert.Lib.RowIndex

/-! ## Host terms both programs spell (any float instance) -/

section Host

variable {F : FTy → Type} [FloatOps F]

/-- The edges' source words: row 0 of `edge_index`, then the self loops `0, 1, …, 49999`. -/
def srcOf (ei : IVec S2x1600000 32) : IVec S1650000 32 :=
  concatenate S1650000 0
    [⟨S1600000, shapeCast S1600000 (extractStridedSlice S1x1600000 ![0, 0] ei slices_S2x1600000_S1x1600000_0_0) shapeCasts_S1x1600000_S1600000⟩,
     ⟨S50000, iotaInDim S50000 32 0⟩] concatenates_S1600000_S50000_S1650000_d0

/-- The edges' destination words: row 1 of `edge_index`, then the self loops. -/
def dstOf (ei : IVec S2x1600000 32) : IVec S1650000 32 :=
  concatenate S1650000 0
    [⟨S1600000, shapeCast S1600000 (extractStridedSlice S1x1600000 ![1, 0] ei slices_S2x1600000_S1x1600000_1_0) shapeCasts_S1x1600000_S1600000⟩,
     ⟨S50000, iotaInDim S50000 32 0⟩] concatenates_S1600000_S50000_S1650000_d0

/-- jnp's wrap of a negative index: a word below zero (read signed) has the node count added. -/
def wrapIdx (a : IVec S1650000 32) : IVec S1650000 32 :=
  select (cmpi .slt a (broadcastInDim S1650000 ![] bcast_S_S1650000 (constantI S_ 32 0#32)))
    (addi a (broadcastInDim S1650000 ![] bcast_S_S1650000 (constantI S_ 32 50000#32))) a

/-- An index vector as the one-column index array a gather or a scatter takes. -/
def idxCol (a : IVec S1650000 32) : IVec S1650000x1 32 :=
  broadcastInDim S1650000x1 ![0] bcast_S1650000_S1650000x1_0 a

/-- The degree of every node: a one for every edge whose destination word lands on it, added to zero. -/
def degOf (ei : IVec S2x1600000 32) : FVec F S50000 .f32 :=
  Host.scatterAdd scatter_S50000_S1650000x1_S1650000_n_0_0_1
    (broadcastInDim S50000 ![] bcast_S_S50000 (constant S_ .f32 0x00000000#32))
    (idxCol (dstOf ei))
    (broadcastInDim S1650000 ![] bcast_S_S1650000 (constant S_ .f32 0x3F800000#32))

/-- `deg ^ (-1/2)` where the degree is positive, zero elsewhere. -/
def dinvOf (ei : IVec S2x1600000 32) : FVec F S50000 .f32 :=
  select (cmpf .ogt (degOf (F := F) ei) (broadcastInDim S50000 ![] bcast_S_S50000 (constant S_ .f32 0x00000000#32)))
    (Host.rsqrt (degOf (F := F) ei))
    (broadcastInDim S50000 ![] bcast_S_S50000 (id (constant S_ .f32 0x00000000#32)))

/-- A vector over the nodes as a one-column matrix. -/
def col {α : Type} (d : S50000.Idx → α) : S50000x1.Idx → α := shapeCast S50000x1 d shapeCasts_S50000_S50000x1
/-- A bias vector as a one-row matrix. -/
def row128 {α : Type} (b : S128.Idx → α) : S1x128.Idx → α := shapeCast S1x128 b shapeCasts_S128_S1x128
def row64 {α : Type} (b : S64.Idx → α) : S1x64.Idx → α := shapeCast S1x64 b shapeCasts_S64_S1x64

/-- The neighbour sum of a 128-column node matrix stored in bf16: the rows the source words pick, widened, added into
    zero at the rows the destination words land on. -/
def agg128 (H : FVec F S50000x128 .bf16) (src dst : IVec S1650000 32) : FVec F S50000x128 .f32 :=
  Host.scatterAdd scatter_S50000x128_S1650000x1_S1650000x128_1_0_0_1
    (broadcastInDim S50000x128 ![] bcast_S_S50000x128 (constant S_ .f32 0x00000000#32))
    (idxCol dst)
    (extf .f32 (Host.gather gather_S50000x128_S1650000x1_S1650000x128_1_0_n_n_0_1_1128 H (idxCol (wrapIdx src))) bitsLt_bf16_f32)

/-- The same for a 64-column node matrix. -/
def agg64 (H : FVec F S50000x64 .bf16) (src dst : IVec S1650000 32) : FVec F S50000x64 .f32 :=
  Host.scatterAdd scatter_S50000x64_S1650000x1_S1650000x64_1_0_0_1
    (broadcastInDim S50000x64 ![] bcast_S_S50000x64 (constant S_ .f32 0x00000000#32))
    (idxCol dst)
    (extf .f32 (Host.gather gather_S50000x64_S1650000x1_S1650000x64_1_0_n_n_0_1_164 H (idxCol (wrapIdx src))) bitsLt_bf16_f32)

end Host

/-! ## On the extended reals -/

/-- The edges whose destination word lands on node `n`. -/
def lands (dst : IVec S1650000 32) (n : Fin 50000) : Finset (Fin 1650000) :=
  Finset.univ.filter fun e => land 50000 (dst (ix1 e)) = some n

/-- The node an edge's index word picks: wrapped when negative, then clamped into the node range. -/
def rowOf (a : IVec S1650000 32) (e : Fin 1650000) : Fin 50000 :=
  pick 50000 (by decide) (wrapIdx a (ix1 e))

/-- The neighbour sum of a node matrix: at `(n, c)` the sum over the edges landing on `n` of the picked row's entry. -/
def aggI {C : ℕ} (H : (⟨2, ![50000, C]⟩ : Shape).Idx → EReal) (src dst : IVec S1650000 32) :
    (⟨2, ![50000, C]⟩ : Shape).Idx → EReal :=
  fun j => ∑ e ∈ lands dst (j 0), H (ix2 (rowOf src e) (j 1))

/-- A node matrix times a weight matrix. -/
def prodI {K C : ℕ} (X : (⟨2, ![50000, K]⟩ : Shape).Idx → EReal) (W : (⟨2, ![K, C]⟩ : Shape).Idx → EReal) :
    (⟨2, ![50000, C]⟩ : Shape).Idx → EReal :=
  fun j => ∑ k : Fin K, X (ix2 (j 0) k) * W (ix2 k (j 1))

/-- The product with every row scaled by the node's entry of a one-column matrix. -/
def prodScaled {K C : ℕ} (X : (⟨2, ![50000, K]⟩ : Shape).Idx → EReal) (W : (⟨2, ![K, C]⟩ : Shape).Idx → EReal)
    (D2 : S50000x1.Idx → EReal) : (⟨2, ![50000, C]⟩ : Shape).Idx → EReal :=
  fun j => prodI X W j * D2 (ix2 (j 0) (0 : Fin 1))

/-- Scale each row, add the bias row, clamp below at zero. -/
def reluAffine (A : S50000x128.Idx → EReal) (B : S1x128.Idx → EReal) (D2 : S50000x1.Idx → EReal) : S50000x128.Idx → EReal :=
  fun i => max (A i * D2 (ix2 (i 0) (0 : Fin 1)) + B (ix2 (0 : Fin 1) (i 1))) 0

/-- Scale each row, add the bias row. -/
def affine64 (A : S50000x64.Idx → EReal) (B : S1x64.Idx → EReal) (D2 : S50000x1.Idx → EReal) : S50000x64.Idx → EReal :=
  fun i => A i * D2 (ix2 (i 0) (0 : Fin 1)) + B (ix2 (0 : Fin 1) (i 1))

/-- The largest entry of a row, folded from −∞. -/
def rowMax (Z : S50000x64.Idx → EReal) (n : Fin 50000) : EReal :=
  (Finset.univ : Finset (Fin 64)).fold max (Ideal.ofBits .f32 0xFF800000#32) (fun k => Z (ix2 n k))

/-- Row-wise log-softmax: shift by the row's maximum, subtract the log of the row's sum of exponentials. -/
def logSoftmaxRows (Z : S50000x64.Idx → EReal) : S50000x64.Idx → EReal :=
  fun i => (Z i - rowMax Z (i 0)) - Ideal.log (∑ k : Fin 64, Ideal.exp (Z (ix2 (i 0) k) - rowMax Z (i 0)))

/-- What the first pallas_call leaves in its output array, of its three input arrays. -/
def K0 (X : S50000x128.Idx → EReal) (W1 : S128x128.Idx → EReal) (D2 : S50000x1.Idx → EReal) : S50000x128.Idx → EReal :=
  prodScaled (K := 128) (C := 128) X W1 D2
/-- The second pallas_call: aggregated sums, bias row, scale column, weights. -/
def K1 (A : S50000x128.Idx → EReal) (B : S1x128.Idx → EReal) (D2 : S50000x1.Idx → EReal) (W2 : S128x64.Idx → EReal) :
    S50000x64.Idx → EReal :=
  prodScaled (K := 128) (C := 64) (reluAffine A B D2) W2 D2
/-- The third pallas_call: aggregated sums, bias row, scale column. -/
def K2 (A : S50000x64.Idx → EReal) (B : S1x64.Idx → EReal) (D2 : S50000x1.Idx → EReal) : S50000x64.Idx → EReal :=
  logSoftmaxRows (affine64 A B D2)

/-- The kernel program's result as one function of the arguments, the index words and `dinv`. -/
def kernelOut (X : S50000x128.Idx → EReal) (src dst : IVec S1650000 32) (D : S50000.Idx → EReal)
    (W1 : S128x128.Idx → EReal) (b1 : S128.Idx → EReal) (W2 : S128x64.Idx → EReal) (b2 : S64.Idx → EReal) : S50000x64.Idx → EReal :=
  K2 (aggI (C := 64) (K1 (aggI (C := 128) (K0 X W1 (col D)) src dst) (row128 b1) (col D) W2) src dst) (row64 b2) (col D)

/-- An edge's normalisation in the reference: `dinv` at the picked source node times `dinv` at the picked destination node. -/
def edgeNorm (D : S50000.Idx → EReal) (src dst : IVec S1650000 32) (e : Fin 1650000) : EReal :=
  D (ix1 (rowOf src e)) * D (ix1 (rowOf dst e))

/-- One reference layer after the dense product: normalised neighbour sum plus the bias. -/
def convRef {C : ℕ} (H : (⟨2, ![50000, C]⟩ : Shape).Idx → EReal) (D : S50000.Idx → EReal) (src dst : IVec S1650000 32)
    (b : (⟨1, ![C]⟩ : Shape).Idx → EReal) : (⟨2, ![50000, C]⟩ : Shape).Idx → EReal :=
  fun j => (∑ e ∈ lands dst (j 0), H (ix2 (rowOf src e) (j 1)) * edgeNorm D src dst e) + b (ix1 (j 1))

/-- The reference's result as one function of the same data. -/
def refOut (X : S50000x128.Idx → EReal) (src dst : IVec S1650000 32) (D : S50000.Idx → EReal)
    (W1 : S128x128.Idx → EReal) (b1 : S128.Idx → EReal) (W2 : S128x64.Idx → EReal) (b2 : S64.Idx → EReal) : S50000x64.Idx → EReal :=
  logSoftmaxRows (convRef (C := 64)
    (prodI (K := 128) (C := 64) (fun i => max (convRef (C := 128) (prodI (K := 128) (C := 128) X W1) D src dst b1 i) 0) W2)
    D src dst b2)

end Cert.Gcn

end
-- ==== Proof.KernelRun.lean ====
/-
  The kernel program's run with its result named.

  @main is eight segments: three stretches of host lines, the first pallas_call, a stretch, the second pallas_call, a
  stretch, the third pallas_call. Every weakly fair execution ends with each unscoped buffer at the contents the fold
  through the segments gives it (`W8`); the result array `main_v42` is one of them, so the run ends with it at
  `W8 … main_v42`, beside the argument arrays as launched. What `W8 … main_v42` is, as a function of the arguments, is
  read off the fold elsewhere.
-/
import proofs.«110948_j44968307589409_2_alg».proof.Proof.Gen.KernelIdeal.Frame

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.KernelFold.lean ====
/-
  The buffer contents of the kernel program at its return, as one nest of the host terms and of three unknown
  whole-array functions, one per pallas_call. Each pallas_call is taken only through its hypothesis "the output array
  at the exit is this function of the arrays found at the entry"; between them, every stretch of host operations is
  read off at the buffers the next boundary needs (source and destination words, the degree's inverse square root as
  one column, the neighbour sums, the bias rows), and every other buffer a boundary reads is followed back, unchanged,
  to the stretch or the launch that wrote it. Nothing here depends on the float instance.
-/
import proofs.«110948_j44968307589409_2_alg».proof.Proof.Gen.KernelIdeal.Frame
import proofs.«110948_j44968307589409_2_alg».proof.Proof.Spec
import proofs.«110948_j44968307589409_2_alg».proof.Proof.LibCat

set_option maxRecDepth 16384

noncomputable section

namespace Cert.Gcn

open Idealize.ShloMosaic Idealize.ShloMosaic.TcCoe Idealize.ShloMosaic.ValueIdx Idealize.SL.Sem
open Cert.KernelIdeal Cert.KernelIdeal.Facts₀

section Fold

variable {F : FTy → Type} [FloatOps F]

/-! ## Congruence of a three- and a four-argument function (joins a boundary's reads to the carried facts) -/

theorem fold_congr3 {α β γ δ : Type} (G : α → β → γ → δ) {a a' : α} {b b' : β} {d d' : γ}
    (ha : a = a') (hb : b = b') (hd : d = d') : G a b d = G a' b' d' := by
  subst ha hb hd; rfl

theorem fold_congr4 {α β γ δ ε : Type} (G : α → β → γ → δ → ε) {a a' : α} {b b' : β} {d d' : γ} {e e' : δ}
    (ha : a = a') (hb : b = b') (hd : d = d') (he : e = e') : G a b d e = G a' b' d' e' := by
  subst ha hb hd he; rfl

/-! ## Each stretch of host operations, read at the buffers a later boundary needs, over any contents `W` -/

/-- The first stretch leaves the source words in `main_v3`. -/
theorem fold_s0_v3 (W : Valuation τ sig (Elt F)) :
    StableHlo.after Gen.hostOps0 W (Proc.devRef .tc main_v3) = srcOf (W (Proc.devRef .tc main_arg1)) := by
  after_results_simp <;> rfl

/-- … the destination words in `main_v6`. -/
theorem fold_s0_v6 (W : Valuation τ sig (Elt F)) :
    StableHlo.after Gen.hostOps0 W (Proc.devRef .tc main_v6) = dstOf (W (Proc.devRef .tc main_arg1)) := by
  after_results_simp <;> rfl

/-- … the test "degree above zero" in `main_v12`. -/
theorem fold_s0_v12 (W : Valuation τ sig (Elt F)) :
    StableHlo.after Gen.hostOps0 W (Proc.devRef .tc main_v12)
      = cmpf .ogt (degOf (F := F) (W (Proc.devRef .tc main_arg1)))
          (broadcastInDim S50000 ![] bcast_S_S50000 (constant S_ .f32 0x00000000#32)) := by
  after_results_simp <;> rfl

/-- … the reciprocal square root of the degree in `main_v13`. -/
theorem fold_s0_v13 (W : Valuation τ sig (Elt F)) :
    StableHlo.after Gen.hostOps0 W (Proc.devRef .tc main_v13) = Host.rsqrt (degOf (F := F) (W (Proc.devRef .tc main_arg1))) := by
  after_results_simp <;> rfl

/-- … and the zero scalar in `main_cst_2`. -/
theorem fold_s0_cst2 (W : Valuation τ sig (Elt F)) :
    StableHlo.after Gen.hostOps0 W (Proc.devRef .tc main_cst_2) = (constant S_ .f32 0x00000000#32 : FVec F S_ .f32) := by
  after_results_simp <;> rfl

/-- The called `where`: the select of the two vectors against the broadcast scalar. -/
theorem fold_s01_v14 (W : Valuation τ sig (Elt F)) :
    StableHlo.after Gen.hostOps0_1 W (Proc.devRef .tc main_v14)
      = select (W (Proc.devRef .tc main_v12)) (W (Proc.devRef .tc main_v13))
          (broadcastInDim S50000 ![] bcast_S_S50000 (id (W (Proc.devRef .tc main_cst_2)))) := by
  after_results_simp
  simp only [Cert.Lib.ofBuf_toBuf]
  rfl

/-- The reshape of `dinv` to one column. -/
theorem fold_s02_v15 (W : Valuation τ sig (Elt F)) :
    StableHlo.after Gen.hostOps0_2 W (Proc.devRef .tc main_v15) = col (W (Proc.devRef .tc main_v14)) := by
  after_results_simp <;> rfl

/-- The stretch between the first two regions: the neighbour sum of the first region's output … -/
theorem fold_s1_v27 (W : Valuation τ sig (Elt F)) :
    StableHlo.after Gen.hostOps1 W (Proc.devRef .tc main_v27)
      = agg128 (W (Proc.devRef .tc main_v16)) (W (Proc.devRef .tc main_v3)) (W (Proc.devRef .tc main_v6)) := by
  after_results_simp <;> rfl

/-- … and the first bias as one row. -/
theorem fold_s1_v28 (W : Valuation τ sig (Elt F)) :
    StableHlo.after Gen.hostOps1 W (Proc.devRef .tc main_v28) = row128 (W (Proc.devRef .tc main_arg3)) := by
  after_results_simp <;> rfl

/-- The stretch between the last two regions: the neighbour sum of the second region's output … -/
theorem fold_s2_v40 (W : Valuation τ sig (Elt F)) :
    StableHlo.after Gen.hostOps2 W (Proc.devRef .tc main_v40)
      = agg64 (W (Proc.devRef .tc main_v29)) (W (Proc.devRef .tc main_v3)) (W (Proc.devRef .tc main_v6)) := by
  after_results_simp <;> rfl

/-- … and the second bias as one row. -/
theorem fold_s2_v41 (W : Valuation τ sig (Elt F)) :
    StableHlo.after Gen.hostOps2 W (Proc.devRef .tc main_v41) = row64 (W (Proc.devRef .tc main_arg5)) := by
  after_results_simp <;> rfl

/-! ## A buffer none of a stretch's operations writes keeps its contents -/

theorem fold_k0_arg0 (W : Valuation τ sig (Elt F)) :
    StableHlo.after Gen.hostOps0 W (Proc.devRef .tc main_arg0) = W (Proc.devRef .tc main_arg0) := by
  after_results_simp
theorem fold_k0_arg2 (W : Valuation τ sig (Elt F)) :
    StableHlo.after Gen.hostOps0 W (Proc.devRef .tc main_arg2) = W (Proc.devRef .tc main_arg2) := by
  after_results_simp
theorem fold_k0_arg3 (W : Valuation τ sig (Elt F)) :
    StableHlo.after Gen.hostOps0 W (Proc.devRef .tc main_arg3) = W (Proc.devRef .tc main_arg3) := by
  after_results_simp
theorem fold_k0_arg4 (W : Valuation τ sig (Elt F)) :
    StableHlo.after Gen.hostOps0 W (Proc.devRef .tc main_arg4) = W (Proc.devRef .tc main_arg4) := by
  after_results_simp
theorem fold_k0_arg5 (W : Valuation τ sig (Elt F)) :
    StableHlo.after Gen.hostOps0 W (Proc.devRef .tc main_arg5) = W (Proc.devRef .tc main_arg5) := by
  after_results_simp
theorem fold_k1_arg4 (W : Valuation τ sig (Elt F)) :
    StableHlo.after Gen.hostOps1 W (Proc.devRef .tc main_arg4) = W (Proc.devRef .tc main_arg4) := by
  after_results_simp
theorem fold_k1_arg5 (W : Valuation τ sig (Elt F)) :
    StableHlo.after Gen.hostOps1 W (Proc.devRef .tc main_arg5) = W (Proc.devRef .tc main_arg5) := by
  after_results_simp
theorem fold_k1_v3 (W : Valuation τ sig (Elt F)) :
    StableHlo.after Gen.hostOps1 W (Proc.devRef .tc main_v3) = W (Proc.devRef .tc main_v3) := by
  after_results_simp
theorem fold_k1_v6 (W : Valuation τ sig (Elt F)) :
    StableHlo.after Gen.hostOps1 W (Proc.devRef .tc main_v6) = W (Proc.devRef .tc main_v6) := by
  after_results_simp
theorem fold_k1_v15 (W : Valuation τ sig (Elt F)) :
    StableHlo.after Gen.hostOps1 W (Proc.devRef .tc main_v15) = W (Proc.devRef .tc main_v15) := by
  after_results_simp
theorem fold_k2_v15 (W : Valuation τ sig (Elt F)) :
    StableHlo.after Gen.hostOps2 W (Proc.devRef .tc main_v15) = W (Proc.devRef .tc main_v15) := by
  after_results_simp
theorem fold_k01_arg0 (W : Valuation τ sig (Elt F)) :
    StableHlo.after Gen.hostOps0_1 W (Proc.devRef .tc main_arg0) = W (Proc.devRef .tc main_arg0) := by
  after_results_simp
theorem fold_k01_arg2 (W : Valuation τ sig (Elt F)) :
    StableHlo.after Gen.hostOps0_1 W (Proc.devRef .tc main_arg2) = W (Proc.devRef .tc main_arg2) := by
  after_results_simp
theorem fold_k01_arg3 (W : Valuation τ sig (Elt F)) :
    StableHlo.after Gen.hostOps0_1 W (Proc.devRef .tc main_arg3) = W (Proc.devRef .tc main_arg3) := by
  after_results_simp
theorem fold_k01_arg4 (W : Valuation τ sig (Elt F)) :
    StableHlo.after Gen.hostOps0_1 W (Proc.devRef .tc main_arg4) = W (Proc.devRef .tc main_arg4) := by
  after_results_simp
theorem fold_k01_arg5 (W : Valuation τ sig (Elt F)) :
    StableHlo.after Gen.hostOps0_1 W (Proc.devRef .tc main_arg5) = W (Proc.devRef .tc main_arg5) := by
  after_results_simp
theorem fold_k01_v3 (W : Valuation τ sig (Elt F)) :
    StableHlo.after Gen.hostOps0_1 W (Proc.devRef .tc main_v3) = W (Proc.devRef .tc main_v3) := by
  after_results_simp
theorem fold_k01_v6 (W : Valuation τ sig (Elt F)) :
    StableHlo.after Gen.hostOps0_1 W (Proc.devRef .tc main_v6) = W (Proc.devRef .tc main_v6) := by
  after_results_simp
theorem fold_k02_arg0 (W : Valuation τ sig (Elt F)) :
    StableHlo.after Gen.hostOps0_2 W (Proc.devRef .tc main_arg0) = W (Proc.devRef .tc main_arg0) := by
  after_results_simp
theorem fold_k02_arg2 (W : Valuation τ sig (Elt F)) :
    StableHlo.after Gen.hostOps0_2 W (Proc.devRef .tc main_arg2) = W (Proc.devRef .tc main_arg2) := by
  after_results_simp
theorem fold_k02_arg3 (W : Valuation τ sig (Elt F)) :
    StableHlo.after Gen.hostOps0_2 W (Proc.devRef .tc main_arg3) = W (Proc.devRef .tc main_arg3) := by
  after_results_simp
theorem fold_k02_arg4 (W : Valuation τ sig (Elt F)) :
    StableHlo.after Gen.hostOps0_2 W (Proc.devRef .tc main_arg4) = W (Proc.devRef .tc main_arg4) := by
  after_results_simp
theorem fold_k02_arg5 (W : Valuation τ sig (Elt F)) :
    StableHlo.after Gen.hostOps0_2 W (Proc.devRef .tc main_arg5) = W (Proc.devRef .tc main_arg5) := by
  after_results_simp
theorem fold_k02_v3 (W : Valuation τ sig (Elt F)) :
    StableHlo.after Gen.hostOps0_2 W (Proc.devRef .tc main_v3) = W (Proc.devRef .tc main_v3) := by
  after_results_simp
theorem fold_k02_v6 (W : Valuation τ sig (Elt F)) :
    StableHlo.after Gen.hostOps0_2 W (Proc.devRef .tc main_v6) = W (Proc.devRef .tc main_v6) := by
  after_results_simp

/-! ## The boundaries, buffer by buffer, from the launch forward -/

variable (m : (ℓ : Loc nD τ sig) → Buf (Elt F) ℓ) (ρ : Dev nD → PrngReg) (c : Dev nD)

/-! ### At the first region's entry -/

theorem fold_W3_arg0 : Gen.W3 m ρ c (Proc.devRef .tc main_arg0) = (m ((c : Thread nD τ).loc main_arg0)) :=
  (fold_k02_arg0 _).trans ((fold_k01_arg0 _).trans ((fold_k0_arg0 _).trans rfl))
theorem fold_W3_arg2 : Gen.W3 m ρ c (Proc.devRef .tc main_arg2) = (m ((c : Thread nD τ).loc main_arg2)) :=
  (fold_k02_arg2 _).trans ((fold_k01_arg2 _).trans ((fold_k0_arg2 _).trans rfl))
theorem fold_W3_arg3 : Gen.W3 m ρ c (Proc.devRef .tc main_arg3) = (m ((c : Thread nD τ).loc main_arg3)) :=
  (fold_k02_arg3 _).trans ((fold_k01_arg3 _).trans ((fold_k0_arg3 _).trans rfl))
theorem fold_W3_arg4 : Gen.W3 m ρ c (Proc.devRef .tc main_arg4) = (m ((c : Thread nD τ).loc main_arg4)) :=
  (fold_k02_arg4 _).trans ((fold_k01_arg4 _).trans ((fold_k0_arg4 _).trans rfl))
theorem fold_W3_arg5 : Gen.W3 m ρ c (Proc.devRef .tc main_arg5) = (m ((c : Thread nD τ).loc main_arg5)) :=
  (fold_k02_arg5 _).trans ((fold_k01_arg5 _).trans ((fold_k0_arg5 _).trans rfl))

theorem fold_W3_v3 : Gen.W3 m ρ c (Proc.devRef .tc main_v3) = (srcOf (m ((c : Thread nD τ).loc main_arg1))) :=
  (fold_k02_v3 _).trans ((fold_k01_v3 _).trans (fold_s0_v3 _))

theorem fold_W3_v6 : Gen.W3 m ρ c (Proc.devRef .tc main_v6) = (dstOf (m ((c : Thread nD τ).loc main_arg1))) :=
  (fold_k02_v6 _).trans ((fold_k01_v6 _).trans (fold_s0_v6 _))

/-- `dinv`: the select's three operands are the first stretch's, so the whole is the host term `dinvOf`. -/
theorem fold_W2_v14 : Gen.W2 m ρ c (Proc.devRef .tc main_v14) = dinvOf (F := F) (m ((c : Thread nD τ).loc main_arg1)) :=
  (fold_s01_v14 _).trans (by
    rw [show Gen.W1 m ρ c (Proc.devRef .tc main_v12) = _ from fold_s0_v12 _,
        show Gen.W1 m ρ c (Proc.devRef .tc main_v13) = _ from fold_s0_v13 _,
        show Gen.W1 m ρ c (Proc.devRef .tc main_cst_2) = _ from fold_s0_cst2 _]
    rfl)

theorem fold_W3_v15 : Gen.W3 m ρ c (Proc.devRef .tc main_v15) = (col (dinvOf (F := F) (m ((c : Thread nD τ).loc main_arg1)))) :=
  (fold_s02_v15 _).trans (congrArg col (fold_W2_v14 m ρ c))

/-! ### At the first region's exit: its output array by the hypothesis, an input array as entered, the rest untouched -/

theorem fold_W4_v16 (G0 : FVec F S50000x128 .f32 → FVec F S128x128 .f32 → FVec F S50000x1 .f32 → FVec F S50000x128 .bf16)
    (h0 : ∀ V, (Gen.dat0 (F := F) V c).arrAt 3 cfg0.N = G0 (V c main_arg0) (V c main_arg2) (V c main_v15)) :
    Gen.W4 m ρ c (Proc.devRef .tc main_v16) = (G0 (m ((c : Thread nD τ).loc main_arg0)) (m ((c : Thread nD τ).loc main_arg2)) (col (dinvOf (F := F) (m ((c : Thread nD τ).loc main_arg1))))) :=
  (Gen.W4_arr m ρ c 3).trans ((h0 (Gen.V3 m ρ)).trans
    (fold_congr3 G0 (fold_W3_arg0 m ρ c) (fold_W3_arg2 m ρ c) (fold_W3_v15 m ρ c)))

theorem fold_W4_v15 : Gen.W4 m ρ c (Proc.devRef .tc main_v15) = (col (dinvOf (F := F) (m ((c : Thread nD τ).loc main_arg1)))) :=
  ((Gen.W4_arr m ρ c 2).trans (((Gen.dat0 (Gen.V3 m ρ) c).arrAt_in 2 rfl _).trans (Gen.A_eq0 (Gen.V3 m ρ) c 2))).trans
    (fold_W3_v15 m ρ c)

theorem fold_W4_v3 : Gen.W4 m ρ c (Proc.devRef .tc main_v3) = (srcOf (m ((c : Thread nD τ).loc main_arg1))) :=
  (Gen.W4_of_ne m ρ c main_v3 (by decide)).trans (fold_W3_v3 m ρ c)

theorem fold_W4_v6 : Gen.W4 m ρ c (Proc.devRef .tc main_v6) = (dstOf (m ((c : Thread nD τ).loc main_arg1))) :=
  (Gen.W4_of_ne m ρ c main_v6 (by decide)).trans (fold_W3_v6 m ρ c)

theorem fold_W4_arg3 : Gen.W4 m ρ c (Proc.devRef .tc main_arg3) = (m ((c : Thread nD τ).loc main_arg3)) :=
  (Gen.W4_of_ne m ρ c main_arg3 (by decide)).trans (fold_W3_arg3 m ρ c)

theorem fold_W4_arg4 : Gen.W4 m ρ c (Proc.devRef .tc main_arg4) = (m ((c : Thread nD τ).loc main_arg4)) :=
  (Gen.W4_of_ne m ρ c main_arg4 (by decide)).trans (fold_W3_arg4 m ρ c)

theorem fold_W4_arg5 : Gen.W4 m ρ c (Proc.devRef .tc main_arg5) = (m ((c : Thread nD τ).loc main_arg5)) :=
  (Gen.W4_of_ne m ρ c main_arg5 (by decide)).trans (fold_W3_arg5 m ρ c)

/-! ### At the second region's entry -/

theorem fold_W5_v27 (G0 : FVec F S50000x128 .f32 → FVec F S128x128 .f32 → FVec F S50000x1 .f32 → FVec F S50000x128 .bf16)
    (h0 : ∀ V, (Gen.dat0 (F := F) V c).arrAt 3 cfg0.N = G0 (V c main_arg0) (V c main_arg2) (V c main_v15)) :
    Gen.W5 m ρ c (Proc.devRef .tc main_v27) = (agg128 (G0 (m ((c : Thread nD τ).loc main_arg0)) (m ((c : Thread nD τ).loc main_arg2)) (col (dinvOf (F := F) (m ((c : Thread nD τ).loc main_arg1))))) (srcOf (m ((c : Thread nD τ).loc main_arg1))) (dstOf (m ((c : Thread nD τ).loc main_arg1)))) :=
  (fold_s1_v27 _).trans
    (fold_congr3 (agg128 (F := F)) (fold_W4_v16 m ρ c G0 h0) (fold_W4_v3 m ρ c) (fold_W4_v6 m ρ c))

theorem fold_W5_v28 : Gen.W5 m ρ c (Proc.devRef .tc main_v28) = row128 (m ((c : Thread nD τ).loc main_arg3)) :=
  (fold_s1_v28 _).trans (congrArg row128 (fold_W4_arg3 m ρ c))

theorem fold_W5_v15 : Gen.W5 m ρ c (Proc.devRef .tc main_v15) = (col (dinvOf (F := F) (m ((c : Thread nD τ).loc main_arg1)))) :=
  (fold_k1_v15 _).trans (fold_W4_v15 m ρ c)

theorem fold_W5_arg4 : Gen.W5 m ρ c (Proc.devRef .tc main_arg4) = (m ((c : Thread nD τ).loc main_arg4)) :=
  (fold_k1_arg4 _).trans (fold_W4_arg4 m ρ c)

theorem fold_W5_arg5 : Gen.W5 m ρ c (Proc.devRef .tc main_arg5) = (m ((c : Thread nD τ).loc main_arg5)) :=
  (fold_k1_arg5 _).trans (fold_W4_arg5 m ρ c)

theorem fold_W5_v3 : Gen.W5 m ρ c (Proc.devRef .tc main_v3) = (srcOf (m ((c : Thread nD τ).loc main_arg1))) :=
  (fold_k1_v3 _).trans (fold_W4_v3 m ρ c)

theorem fold_W5_v6 : Gen.W5 m ρ c (Proc.devRef .tc main_v6) = (dstOf (m ((c : Thread nD τ).loc main_arg1))) :=
  (fold_k1_v6 _).trans (fold_W4_v6 m ρ c)

/-! ### At the second region's exit -/

theorem fold_W6_v29 (G0 : FVec F S50000x128 .f32 → FVec F S128x128 .f32 → FVec F S50000x1 .f32 → FVec F S50000x128 .bf16)
    (G1 : FVec F S50000x128 .f32 → FVec F S1x128 .f32 → FVec F S50000x1 .f32 → FVec F S128x64 .f32 → FVec F S50000x64 .bf16)
    (h0 : ∀ V, (Gen.dat0 (F := F) V c).arrAt 3 cfg0.N = G0 (V c main_arg0) (V c main_arg2) (V c main_v15))
    (h1 : ∀ V, (Gen.dat1 (F := F) V c).arrAt 4 cfg1.N = G1 (V c main_v27) (V c main_v28) (V c main_v15) (V c main_arg4)) :
    Gen.W6 m ρ c (Proc.devRef .tc main_v29) = (G1 (agg128 (G0 (m ((c : Thread nD τ).loc main_arg0)) (m ((c : Thread nD τ).loc main_arg2)) (col (dinvOf (F := F) (m ((c : Thread nD τ).loc main_arg1))))) (srcOf (m ((c : Thread nD τ).loc main_arg1))) (dstOf (m ((c : Thread nD τ).loc main_arg1)))) (row128 (m ((c : Thread nD τ).loc main_arg3))) (col (dinvOf (F := F) (m ((c : Thread nD τ).loc main_arg1)))) (m ((c : Thread nD τ).loc main_arg4))) :=
  (Gen.W6_arr m ρ c 4).trans ((h1 (Gen.V5 m ρ)).trans
    (fold_congr4 G1 (fold_W5_v27 m ρ c G0 h0) (fold_W5_v28 m ρ c) (fold_W5_v15 m ρ c) (fold_W5_arg4 m ρ c)))

theorem fold_W6_v15 : Gen.W6 m ρ c (Proc.devRef .tc main_v15) = (col (dinvOf (F := F) (m ((c : Thread nD τ).loc main_arg1)))) :=
  ((Gen.W6_arr m ρ c 2).trans (((Gen.dat1 (Gen.V5 m ρ) c).arrAt_in 2 rfl _).trans (Gen.A_eq1 (Gen.V5 m ρ) c 2))).trans
    (fold_W5_v15 m ρ c)

theorem fold_W6_v3 : Gen.W6 m ρ c (Proc.devRef .tc main_v3) = (srcOf (m ((c : Thread nD τ).loc main_arg1))) :=
  (Gen.W6_of_ne m ρ c main_v3 (by decide)).trans (fold_W5_v3 m ρ c)

theorem fold_W6_v6 : Gen.W6 m ρ c (Proc.devRef .tc main_v6) = (dstOf (m ((c : Thread nD τ).loc main_arg1))) :=
  (Gen.W6_of_ne m ρ c main_v6 (by decide)).trans (fold_W5_v6 m ρ c)

theorem fold_W6_arg5 : Gen.W6 m ρ c (Proc.devRef .tc main_arg5) = (m ((c : Thread nD τ).loc main_arg5)) :=
  (Gen.W6_of_ne m ρ c main_arg5 (by decide)).trans (fold_W5_arg5 m ρ c)

/-! ### At the third region's entry -/

theorem fold_W7_v40 (G0 : FVec F S50000x128 .f32 → FVec F S128x128 .f32 → FVec F S50000x1 .f32 → FVec F S50000x128 .bf16)
    (G1 : FVec F S50000x128 .f32 → FVec F S1x128 .f32 → FVec F S50000x1 .f32 → FVec F S128x64 .f32 → FVec F S50000x64 .bf16)
    (h0 : ∀ V, (Gen.dat0 (F := F) V c).arrAt 3 cfg0.N = G0 (V c main_arg0) (V c main_arg2) (V c main_v15))
    (h1 : ∀ V, (Gen.dat1 (F := F) V c).arrAt 4 cfg1.N = G1 (V c main_v27) (V c main_v28) (V c main_v15) (V c main_arg4)) :
    Gen.W7 m ρ c (Proc.devRef .tc main_v40) = (agg64 (G1 (agg128 (G0 (m ((c : Thread nD τ).loc main_arg0)) (m ((c : Thread nD τ).loc main_arg2)) (col (dinvOf (F := F) (m ((c : Thread nD τ).loc main_arg1))))) (srcOf (m ((c : Thread nD τ).loc main_arg1))) (dstOf (m ((c : Thread nD τ).loc main_arg1)))) (row128 (m ((c : Thread nD τ).loc main_arg3))) (col (dinvOf (F := F) (m ((c : Thread nD τ).loc main_arg1)))) (m ((c : Thread nD τ).loc main_arg4))) (srcOf (m ((c : Thread nD τ).loc main_arg1))) (dstOf (m ((c : Thread nD τ).loc main_arg1)))) :=
  (fold_s2_v40 _).trans
    (fold_congr3 (agg64 (F := F)) (fold_W6_v29 m ρ c G0 G1 h0 h1) (fold_W6_v3 m ρ c) (fold_W6_v6 m ρ c))

theorem fold_W7_v41 : Gen.W7 m ρ c (Proc.devRef .tc main_v41) = row64 (m ((c : Thread nD τ).loc main_arg5)) :=
  (fold_s2_v41 _).trans (congrArg row64 (fold_W6_arg5 m ρ c))

theorem fold_W7_v15 : Gen.W7 m ρ c (Proc.devRef .tc main_v15) = (col (dinvOf (F := F) (m ((c : Thread nD τ).loc main_arg1)))) :=
  (fold_k2_v15 _).trans (fold_W6_v15 m ρ c)

/-! ## The result: the third region's output array at the return -/

theorem fold_result
    (G0 : FVec F S50000x128 .f32 → FVec F S128x128 .f32 → FVec F S50000x1 .f32 → FVec F S50000x128 .bf16)
    (G1 : FVec F S50000x128 .f32 → FVec F S1x128 .f32 → FVec F S50000x1 .f32 → FVec F S128x64 .f32 → FVec F S50000x64 .bf16)
    (G2 : FVec F S50000x64 .f32 → FVec F S1x64 .f32 → FVec F S50000x1 .f32 → FVec F S50000x64 .f32)
    (h0 : ∀ V, (Gen.dat0 (F := F) V c).arrAt 3 cfg0.N = G0 (V c main_arg0) (V c main_arg2) (V c main_v15))
    (h1 : ∀ V, (Gen.dat1 (F := F) V c).arrAt 4 cfg1.N = G1 (V c main_v27) (V c main_v28) (V c main_v15) (V c main_arg4))
    (h2 : ∀ V, (Gen.dat2 (F := F) V c).arrAt 3 cfg2.N = G2 (V c main_v40) (V c main_v41) (V c main_v15)) :
    Gen.W8 m ρ c (Proc.devRef .tc main_v42)
      = G2 (agg64 (G1 (agg128 (G0 (m ((c : Thread nD τ).loc main_arg0)) (m ((c : Thread nD τ).loc main_arg2)) (col (dinvOf (F := F) (m ((c : Thread nD τ).loc main_arg1))))) (srcOf (m ((c : Thread nD τ).loc main_arg1))) (dstOf (m ((c : Thread nD τ).loc main_arg1))))
                      (row128 (m ((c : Thread nD τ).loc main_arg3))) (col (dinvOf (F := F) (m ((c : Thread nD τ).loc main_arg1)))) (m ((c : Thread nD τ).loc main_arg4)))
                  (srcOf (m ((c : Thread nD τ).loc main_arg1))) (dstOf (m ((c : Thread nD τ).loc main_arg1))))
           (row64 (m ((c : Thread nD τ).loc main_arg5))) (col (dinvOf (F := F) (m ((c : Thread nD τ).loc main_arg1)))) :=
  (Gen.W8_arr m ρ c 3).trans ((h2 (Gen.V7 m ρ)).trans
    (fold_congr3 G2 (fold_W7_v40 m ρ c G0 G1 h0 h1) (fold_W7_v41 m ρ c) (fold_W7_v15 m ρ c)))

end Fold
end Cert.Gcn
end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Region0.lean ====
/-
  The first blockwise stage of the two-layer graph convolution, as a whole-array function.

  The stage walks the 50000 rows of the node matrix in 25 blocks of 2000 rows. At each block it multiplies the
  block `[2000, 128]` by the whole weight matrix `[128, 128]` (both narrowed to bf16, the products added into a
  zero f32 accumulator), scales row `p` of the product by the one entry of row `p` of the scale column's block,
  narrows the result and writes it to the same rows of the output array. On the extended reals a format change
  is the identity and every operation is exact, so the entry `(n, c)` of the output array is
      (∑ k, X (n, k) · W (k, c)) · D (n, 0),
  which is `K0 X W D`. The proof reads the body's value at an entry of a block, identifies entry `(p, q)` of
  block `t` of each array with entry `(2000·t + p, q)` of the array, and then covers the output array by the 25
  blocks: row `r` lies in block `r / 2000`.
-/
import proofs.«110948_j44968307589409_2_alg».proof.Proof.Gen.KernelIdeal.Frame
import proofs.«110948_j44968307589409_2_alg».proof.Proof.Spec
import proofs.«110948_j44968307589409_2_alg».proof.Proof.LibPlainDot
import proofs.«110948_j44968307589409_2_alg».proof.Proof.LibKeepdims
import Idealize.ShloMosaic.Lib.Pipeline.Value

noncomputable section

open scoped BigOperators

namespace Cert.Gcn

open Idealize.ShloMosaic Idealize.ShloMosaic.ValueIdx Idealize.ShloMosaic.TcCoe Idealize.SL.Sem
open Cert.KernelIdeal Cert.KernelIdeal.Gen
open Idealize.ShloMosaic.Pipeline (Dat)

/-! ## The body's value at an entry of a block -/

/-- Entry `(p, q)` of what the body computes from a block `x` of the node matrix, the weight matrix `w` and a
    block `d` of the scale column: the row-by-column sum of products, times the row's scale. The narrowings are
    the identity on the extended reals, the product into the zero accumulator is the plain contraction over the
    128 inner coordinates, the column broadcast along the row reads its one entry of that row, and the
    same-shape reshape is the identity. -/
theorem r0_pay (x : S2000x128.Idx → EReal) (w : S128x128.Idx → EReal) (d : S2000x1.Idx → EReal)
    (p : Fin 2000) (q : Fin 128) :
    Gen.k0_pay1 (F := Ideal) x w d (ix2 p q) = (∑ k : Fin 128, x (ix2 p k) * w (ix2 k q)) * d (ix2 p (0 : Fin 1)) := by
  unfold Gen.k0_pay1
  rw [truncf_apply, mulf_apply]
  refine congrArg₂ (· * ·) ?_ ?_
  · exact Cert.PlainDot.matmul_zero_apply 2000 128 128 (φ₁ := .bf16) (φ₂ := .bf16) none
      (truncf FTy.bf16 x bitsLt_bf16_f32) (truncf FTy.bf16 w bitsLt_bf16_f32) (ix2 p q)
  · refine (Cert.Keepdims.broadcastTo_a1_ab_apply _ _ p q).trans ?_
    rw [shapeCast_self]

/-! ## The blocks inside their arrays -/

/-- The zero offsets, spelled as a constant function. -/
theorem r0_hz : (![0, 0] : Fin 2 → Nat) = fun _ => 0 := funext fun a => by fin_cases a <;> rfl

/-- The four index maps over the 25 points: the node matrix, the scale column and the output move one block of
    rows per point and stay at column block 0; the weight matrix stays at block (0, 0). -/
theorem r0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block `t` of the node matrix is its rows `2000·t … 2000·t + 1999`. -/
theorem r0_read0 (t : Fin cfg0.N) (X : S50000x128.Idx → EReal) (p : Fin 2000) (k : Fin 128)
    (h : 2000 * t.val + p.val < 50000) :
    ((cfg0.win 0).blk t).view.read (Elt Ideal) X (ix2 p k) = X (ix2 ⟨2000 * t.val + p.val, h⟩ k) := by
  rw [View.read_apply, cast_eq]
  refine congrArg X ?_
  funext a; apply Fin.ext
  obtain ⟨e0, e1, -⟩ := r0_idx t
  match a with
  | ⟨0, _⟩ => show win0_0.index t (0 : Fin 2) * 2000 + 1 * p.val = 2000 * t.val + p.val; omega
  | ⟨1, _⟩ => show win0_0.index t (1 : Fin 2) * 128 + 1 * k.val = k.val; omega

/-- The weight matrix's block is the whole matrix at every point. -/
theorem r0_read1 (t : Fin cfg0.N) (W : S128x128.Idx → EReal) (k : Fin 128) (q : Fin 128) :
    ((cfg0.win 1).blk t).view.read (Elt Ideal) W (ix2 k q) = W (ix2 k q) := by
  rw [View.read_apply, cast_eq]
  refine congrArg W ?_
  funext a; apply Fin.ext
  obtain ⟨-, -, e2, e3, -⟩ := r0_idx t
  match a with
  | ⟨0, _⟩ => show win0_1.index t (0 : Fin 2) * 128 + 1 * k.val = k.val; omega
  | ⟨1, _⟩ => show win0_1.index t (1 : Fin 2) * 128 + 1 * q.val = q.val; omega

/-- Block `t` of the scale column is its rows `2000·t … 2000·t + 1999`. -/
theorem r0_read2 (t : Fin cfg0.N) (D : S50000x1.Idx → EReal) (p : Fin 2000) (u : Fin 1)
    (h : 2000 * t.val + p.val < 50000) :
    ((cfg0.win 2).blk t).view.read (Elt Ideal) D (ix2 p u) = D (ix2 ⟨2000 * t.val + p.val, h⟩ (0 : Fin 1)) := by
  rw [View.read_apply, cast_eq]
  refine congrArg D ?_
  funext a; apply Fin.ext
  obtain ⟨-, -, -, -, e4, e5, -⟩ := r0_idx t
  have hu : u.val = 0 := by omega
  match a with
  | ⟨0, _⟩ => show win0_2.index t (0 : Fin 2) * 2000 + 1 * p.val = 2000 * t.val + p.val; omega
  | ⟨1, _⟩ => show win0_2.index t (1 : Fin 2) * 1 + 1 * u.val = 0; omega

/-- Block `t` of an array of the output's shape, likewise. -/
theorem r0_read3 (t : Fin cfg0.N) (G : S50000x128.Idx → EReal) (p : Fin 2000) (q : Fin 128)
    (h : 2000 * t.val + p.val < 50000) :
    ((cfg0.win 3).blk t).view.read (Elt Ideal) G (ix2 p q) = G (ix2 ⟨2000 * t.val + p.val, h⟩ q) := by
  rw [View.read_apply, cast_eq]
  refine congrArg G ?_
  funext a; apply Fin.ext
  obtain ⟨-, -, -, -, -, -, e6, e7⟩ := r0_idx t
  match a with
  | ⟨0, _⟩ => show win0_3.index t (0 : Fin 2) * 2000 + 1 * p.val = 2000 * t.val + p.val; omega
  | ⟨1, _⟩ => show win0_3.index t (1 : Fin 2) * 128 + 1 * q.val = q.val; omega

/-! ## What one point writes back -/

/-- Over any three arrays: the body's result of the arrays' blocks at point `t` is block `t` of the scaled
    product of the whole arrays. Entry `(p, q)` of either side is the sum over `k` of
    `X (2000·t + p, k) · W (k, q)`, times `D (2000·t + p, 0)`. -/
theorem r0_block (t : Fin cfg0.N) (X : S50000x128.Idx → EReal) (W : S128x128.Idx → EReal) (D : S50000x1.Idx → EReal) :
    (cfg0.win 3).cut (grid0.coords t)
        (Gen.k0_pay1 (F := Ideal) (((cfg0.win 0).blk t).view.read (Elt Ideal) X)
          (((cfg0.win 1).blk t).view.read (Elt Ideal) W) (((cfg0.win 2).blk t).view.read (Elt Ideal) D))
      = ((cfg0.win 3).blk t).view.read (Elt Ideal) (K0 X W D) := by
  funext j
  obtain ⟨p, q, rfl⟩ : ∃ (p : Fin 2000) (q : Fin 128), j = ix2 p q :=
    ⟨⟨(j 0).val, (j 0).isLt⟩, ⟨(j 1).val, (j 1).isLt⟩, by
      funext a; apply Fin.ext
      match a with
      | ⟨0, _⟩ => rfl
      | ⟨1, _⟩ => rfl⟩
  have ht : t.val < 25 := t.isLt
  have hp : p.val < 2000 := p.isLt
  have hn : 2000 * t.val + p.val < 50000 := by omega
  have hj : (cfg0.win 3).xinj (grid0.coords t) (ix2 p q) = ix2 p q := by
    funext a; apply Fin.ext
    match a with
    | ⟨0, _⟩ => rfl
    | ⟨1, _⟩ => rfl
  show Gen.k0_pay1 (F := Ideal) _ _ _ ((cfg0.win 3).xinj (grid0.coords t) (ix2 p q)) = _
  rw [hj, r0_pay, r0_read3 t (K0 X W D) p q hn, r0_read2 t D p 0 hn]
  show _ = (∑ k : Fin 128, X (ix2 _ k) * W (ix2 k _)) * D (ix2 _ (0 : Fin 1))
  refine congrArg₂ (· * ·) (Finset.sum_congr rfl fun k _ => ?_) rfl
  rw [r0_read0 t X p k hn, r0_read1 t W k q]

/-- What point `t` writes back to the output array is block `t` of the scaled product of the three arrays the
    stage finds: the one store through the whole staging buffer leaves the body's value, the loads through the
    whole staging buffers read the blocks. -/
theorem r0_flushed_eq (V : (c : Dev nD) → (b : Ref sig .tc) → Buf (Elt Ideal) ((c : Thread nD τ).loc b))
    (c : Dev nD) (t : Fin cfg0.N) :
    (Gen.dat0 (F := Ideal) V c).flushed 3 t
      = ((cfg0.win 3).blk t).view.read (Elt Ideal) (K0 (V c main_arg0) (V c main_arg2) (V c main_v15)) := by
  show (cfg0.win 3).cut (grid0.coords t) ((Gen.dat0 (F := Ideal) V c).after 3 t) = _
  rw [Gen.after0_3]
  unfold Gen.out0_3
  rw [View.canon_unit_zero r0_hz]
  simp only [View.ld_unit_zero (S := S2000x128) r0_hz, View.ld_unit_zero (S := S128x128) r0_hz,
    View.ld_unit_zero (S := S2000x1) r0_hz]
  unfold Gen.iblk0
  exact r0_block t (V c main_arg0) (V c main_arg2) (V c main_v15)

/-! ## The blocks cover the output array -/

/-- An index of the output array is in point `t`'s block iff each coordinate is in the block's range. -/
theorem r0_mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Every index of the output array is in some point's block: row `r` is in block `r / 2000`. -/
theorem r0_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 2000, by show (i 0).val / 2000 < 25; omega⟩, flush0_3 _, ?_⟩
  rw [r0_mem_blk]
  obtain ⟨-, -, -, -, -, -, e6, e7⟩ := r0_idx ⟨(i 0).val / 2000, by show (i 0).val / 2000 < 25; omega⟩
  have e6' : win0_3.index ⟨(i 0).val / 2000, by show (i 0).val / 2000 < 25; omega⟩ (0 : Fin 2) = (i 0).val / 2000 := e6
  intro a
  match a with
  | ⟨0, _⟩ =>
    show win0_3.index _ (0 : Fin 2) * 2000 ≤ (i 0).val ∧ (i 0).val < win0_3.index _ (0 : Fin 2) * 2000 + 2000
    rw [e6']; omega
  | ⟨1, _⟩ =>
    show win0_3.index _ (1 : Fin 2) * 128 ≤ (i 1).val ∧ (i 1).val < win0_3.index _ (1 : Fin 2) * 128 + 128
    rw [e7]; omega

/-! ## The output array -/

/-- The first blockwise stage leaves in its output array the scaled product of the three arrays it finds, whatever
    their contents: every point writes its block of that product, and the blocks cover the array. -/
theorem region0_value (V : (c : Dev nD) → (b : Ref sig .tc) → Buf (Elt Ideal) ((c : Thread nD τ).loc b)) (c : Dev nD) :
    (Gen.dat0 (F := Ideal) V c).arrAt 3 cfg0.N = K0 (V c main_arg0) (V c main_arg2) (V c main_v15) :=
  (Gen.dat0 (F := Ideal) V c).arrAt_eq_of_cover 3 (K0 (V c main_arg0) (V c main_arg2) (V c main_v15))
    (fun t _ => r0_flushed_eq V c t) r0_cover

end Cert.Gcn

end
-- ==== Proof.Region1.lean ====
/-
  The second pallas_call of the two-layer graph convolution, as a whole-array function on the extended reals.

  The call walks the 50000 rows of its arrays in 25 blocks of 2000 rows. At each block it scales the rows of the
  aggregated sums by the node's entry of the scale column, adds the bias row, clamps below at zero, multiplies by the
  128×64 weight matrix and scales the rows of the product again. This file shows that the 50000×64 array the call
  leaves is `K1` of the four arrays it reads, whatever they hold: entry `(n, c)` is
  `(∑ k, max (A (n, k) · D (n) + B (k)) 0 · W (k, c)) · D (n)`.

  The steps: the block's stored vector read at an entry `(p, q)` (format changes are the identity on the extended
  reals, the one-column and one-row broadcasts read their single column or row, the product into a zero accumulator is
  the sum over the 128 inner indices); row `p` of block `t` of a row-blocked array is row `2000·t + p` of the
  array while the bias row and the weights are whole at every block; so what block `t` writes back is block `t`
  of `K1`; the 25 blocks cover every row (row `r` lies in block `r / 2000`).
-/
import proofs.«110948_j44968307589409_2_alg».proof.Proof.Gen.KernelIdeal.Frame
import proofs.«110948_j44968307589409_2_alg».proof.Proof.Spec
import proofs.«110948_j44968307589409_2_alg».proof.Proof.LibPlainDot
import proofs.«110948_j44968307589409_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn

open Idealize.ShloMosaic Idealize.ShloMosaic.ValueIdx Idealize.ShloMosaic.TcCoe Idealize.SL.Sem
open Cert.KernelIdeal Cert.KernelIdeal.Gen Cert.KernelIdeal.Facts₀
open Idealize.ShloMosaic.Pipeline (Dat)

/-! ## The stored vector at an entry -/

/-- The vector a block stores, at entry `(p, q)`, of the five vectors the block loads (the scale column is loaded
    twice): the row of `x0` scaled by the column's entry, the bias row added, the maximum with zero taken, summed
    against column `q` of the weights over the 128 inner indices, the sum scaled by the column's entry again.
    Narrowing to bf16 and widening back change nothing on the extended reals; a one-column matrix broadcast over
    the columns reads its entry of the row, a one-row matrix broadcast over the rows reads its entry of the column; a
    matrix product into the zero accumulator is the plain sum of products. -/
theorem r1_pay_apply (x0 : S2000x128.Idx → EReal) (x2 : S2000x1.Idx → EReal) (x6 : S1x128.Idx → EReal)
    (x13 : S128x64.Idx → EReal) (x16 : S2000x1.Idx → EReal) (p : Fin 2000) (q : Fin 64) :
    k1_pay1 (F := Ideal) x0 x2 x6 x13 x16 (ix2 p q)
      = (∑ k : Fin 128, max (x0 (ix2 p k) * x2 (ix2 p (0 : Fin 1)) + x6 (ix2 (0 : Fin 1) k)) 0 * x13 (ix2 k q))
          * x16 (ix2 p (0 : Fin 1)) := by
  unfold k1_pay1
  simp only [shapeCast_self]
  show (matmul (F := Ideal) dot_S2000x128_S128x64_S2000x64_1_0_0_1_n_n none _ _ _ (ix2 p q))
      * (broadcastTo S2000x64 x16 _ (ix2 p q)) = _
  rw [Cert.Keepdims.broadcastTo_a1_ab_apply]
  congr 1
  refine (Cert.PlainDot.matmul_zero_apply 2000 128 64 (φ₁ := .bf16) (φ₂ := .bf16) none _ _ (ix2 p q)).trans ?_
  refine Finset.sum_congr rfl fun k _ => ?_
  show max (x0 (ix2 p k) * (broadcastTo S2000x128 x2 _ (ix2 p k)) + (broadcastTo S2000x128 x6 _ (ix2 p k)))
      (Ideal.ofBits .f32 0x00000000#32) * x13 (ix2 k q) = _
  rw [Cert.Keepdims.broadcastTo_a1_ab_apply, broadcastTo_1b_ab_apply, Ideal.ofBits_zero_f32]

/-- The zero offsets of a whole-buffer access, as the constant function. -/
theorem r1_hz : (![0, 0] : Fin 2 → Nat) = fun _ => 0 := funext fun a => by fin_cases a <;> rfl

/-! ## A block's entry is the array function's entry -/

/-- For ANY four arrays and four block vectors: if row `y 0` of the block of `A` is row `i 0` of `A`, the
    block's entry of the scale column is the array's at row `i 0`, the bias row and the weights' column `y 1`
    are the arrays' own (column `i 1`), then the stored vector at `y` is `K1` of the arrays at `i`: both
    sides are the same sum of the same terms. -/
theorem r1_block_entry (A : S50000x128.Idx → EReal) (B : S1x128.Idx → EReal) (D2 : S50000x1.Idx → EReal)
    (W2 : S128x64.Idx → EReal) (a : S2000x128.Idx → EReal) (b : S1x128.Idx → EReal) (d : S2000x1.Idx → EReal)
    (w : S128x64.Idx → EReal) (y : S2000x64.Idx) (i : S50000x64.Idx)
    (ha : ∀ k : Fin 128, a (ix2 (y 0) k) = A (ix2 (i 0) k))
    (hb : ∀ k : Fin 128, b (ix2 (0 : Fin 1) k) = B (ix2 (0 : Fin 1) k))
    (hd : d (ix2 (y 0) (0 : Fin 1)) = D2 (ix2 (i 0) (0 : Fin 1)))
    (hw : ∀ k : Fin 128, w (ix2 k (y 1)) = W2 (ix2 k (i 1))) :
    k1_pay1 (F := Ideal) a d b w d y = K1 A B D2 W2 i := by
  refine (congrArg (k1_pay1 (F := Ideal) a d b w d) (eq_ix2 y)).trans ?_
  refine (r1_pay_apply a d b w d (y 0) (y 1)).trans ?_
  rw [hd]
  show _ = (∑ k : Fin 128, max (A (ix2 (i 0) k) * D2 (ix2 (i 0) (0 : Fin 1)) + B (ix2 (0 : Fin 1) k)) 0 * W2 (ix2 k (i 1)))
      * D2 (ix2 (i 0) (0 : Fin 1))
  congr 1
  refine Finset.sum_congr rfl fun k _ => ?_
  rw [ha, hb, hw]

/-! ## Where each window's block sits -/

/-- The block indices at the 25 grid points, decided once: the aggregated sums, the scale column and the output move
    down one block of rows per point; the bias row and the weights stay at block (0, 0). -/
theorem r1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `K1` of the four arrays as the call finds them. An entry `j` of
    the output block sits at array coordinate (block index × block size + `j`'s coordinate) on each axis; the input
    blocks' rows sit at the same array rows, by the decided block indices. -/
theorem r1_flushed_eq (V : (c : Dev nD) → (b : Ref sig .tc) → Buf (Elt Ideal) ((c : Thread nD τ).loc b)) (c : Dev nD)
    (t : Fin cfg1.N) :
    (dat1 (F := Ideal) V c).flushed 4 t
      = ((cfg1.win 4).blk t).view.read (Elt Ideal) (K1 (V c main_v27) (V c main_v28) (V c main_v15) (V c main_arg4)) := by
  show (cfg1.win 4).cut (grid1.coords t) ((dat1 V c).after 4 t) = _
  rw [after1_4]
  unfold out1_4
  rw [View.canon_unit_zero r1_hz]
  simp only [View.ld_unit_zero (S := S2000x128) r1_hz, View.ld_unit_zero (S := S2000x1) r1_hz,
    View.ld_unit_zero (S := S1x128) r1_hz, View.ld_unit_zero (S := S128x64) r1_hz]
  obtain ⟨e00, e01, e10, e11, e20, e21, e30, e31, e40, e41⟩ := r1_idx_facts t
  funext j
  rw [View.read_apply, cast_eq]
  refine r1_block_entry _ _ _ _ _ _ _ _ ((cfg1.win 4).xinj (grid1.coords t) j) _ ?_ ?_ ?_ ?_
  · -- the aggregated sums: row `j 0` of block `t` is array row `2000·t + j 0`
    intro k
    unfold iblk1
    rw [View.read_apply, cast_eq]
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  · -- the bias row: whole at every point
    intro k
    unfold iblk1
    rw [View.read_apply, cast_eq]
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · -- the scale column: row `j 0` of block `t` is array row `2000·t + j 0`
    unfold iblk1
    rw [View.read_apply, cast_eq]
    refine congrArg _ (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  · -- the weights: whole at every point
    intro k
    unfold iblk1
    rw [View.read_apply, cast_eq]
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_4.index t (1 : Fin 2) * 64 + 1 * (j 1).val; omega

/-! ## The blocks cover the array -/

/-- An index of the output array is in point `t`'s block iff each coordinate is in the block's range on its axis. -/
theorem r1_mem_blk (t : Fin cfg1.N) (i : S50000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v29).slice (win1_4.rect t)).set ↔ _
  rw [View.set_slice_whole, Rect.mem_set_unit]
  exact Iff.rfl

/-- Every index of the output array is in a block that is written back: row `r` lies in block `r / 2000`, and
    `50000 = 25 · 2000`. -/
theorem r1_cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hlt : (i 0).val / 2000 < cfg1.N := Nat.lt_of_lt_of_eq (by omega) N_1.symm
  obtain ⟨t, ht⟩ : ∃ t : Fin cfg1.N, t.val = (i 0).val / 2000 := ⟨⟨_, hlt⟩, rfl⟩
  refine ⟨t, flush1_4 t, ?_⟩
  rw [r1_mem_blk]
  obtain ⟨-, -, -, -, -, -, -, -, e40, e41⟩ := r1_idx_facts t
  intro a
  match a with
  | ⟨0, _⟩ =>
    show win1_4.index t (0 : Fin 2) * 2000 ≤ (i 0).val ∧ (i 0).val < win1_4.index t (0 : Fin 2) * 2000 + 2000
    rw [e40, ht]; omega
  | ⟨1, _⟩ =>
    show win1_4.index t (1 : Fin 2) * 64 ≤ (i 1).val ∧ (i 1).val < win1_4.index t (1 : Fin 2) * 64 + 64
    rw [e41]; omega

/-! ## The array the call leaves -/

/-- The output array after the 25 points is `K1` of the aggregated sums, the bias row, the scale column and the
    weights as the call finds them: every point writes its block of `K1`, and the blocks cover the array. -/
theorem region1_value (V : (c : Dev nD) → (b : Ref sig .tc) → Buf (Elt Ideal) ((c : Thread nD τ).loc b)) (c : Dev nD) :
    (Gen.dat1 (F := Ideal) V c).arrAt 4 cfg1.N = K1 (V c main_v27) (V c main_v28) (V c main_v15) (V c main_arg4) :=
  (dat1 (F := Ideal) V c).arrAt_eq_of_cover 4 (K1 (V c main_v27) (V c main_v28) (V c main_v15) (V c main_arg4))
    (fun t _ => r1_flushed_eq V c t) r1_cover

end Cert.Gcn

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.Region2.lean ====
/-
  What the third kernel call leaves in its output array.

  The call walks 25 grid points. At point `t` it reads block `t` (rows 2000·t … 2000·t + 1999) of the aggregated sums
  and of the scale column, and the whole bias row, and writes block `t` of the output: each entry is scaled by its
  row's scale and shifted by its column's bias, then the row-wise log-softmax is taken (shift by the row's maximum,
  subtract the log of the row's sum of exponentials). Every step acts row by row, so a block row's result depends only
  on the same row of the arrays: block `t` of the output is block `t` of the whole-array function `K2`. The 25 blocks
  tile the 50000 rows (row `r` lies in block `r / 2000`), so the array ends holding `K2` of the arrays the call found.
-/
import proofs.«110948_j44968307589409_2_alg».proof.Proof.Gen.KernelIdeal.Frame
import proofs.«110948_j44968307589409_2_alg».proof.Proof.Spec
import proofs.«110948_j44968307589409_2_alg».proof.Proof.LibKeepdims
import proofs.«110948_j44968307589409_2_alg».proof.Proof.LibRowMax
import Idealize.ShloMosaic.Lib.Pipeline.Value
import Idealize.ShloMosaic.Lib.ValueLayout

set_option maxRecDepth 16384

noncomputable section

open scoped BigOperators

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Facts₀ Cert.KernelIdeal.Gen

/-- Row-wise log-softmax of one row of 64 entries: shift by the row's maximum (folded from −∞), subtract the log of
    the sum of exponentials. -/
def r2_lsmRow (z : Fin 64 → EReal) (q : Fin 64) : EReal :=
  (z q - (Finset.univ : Finset (Fin 64)).fold max (Ideal.ofBits .f32 0xFF800000#32) z)
    - Ideal.log (∑ k : Fin 64, Ideal.exp (z k - (Finset.univ : Finset (Fin 64)).fold max (Ideal.ofBits .f32 0xFF800000#32) z))

/-- A block scaled row by row by a one-column block and shifted by a one-row block, at an entry. -/
theorem r2_affine_apply (x0 : FVec Ideal S2000x64 .f32) (x2 : FVec Ideal S2000x1 .f32) (x6 : FVec Ideal S1x64 .f32)
    (h0 : S2000x64.ShapeCasts S2000x64) (h2 : S2000x1.ShapeCasts S2000x1) (h6 : S1x64.ShapeCasts S1x64)
    (hb2 : S2000x1.Broadcasts S2000x64) (hb6 : S1x64.Broadcasts S2000x64)
    (p : Fin 2000) (k : Fin 64) :
    (addf (mulf (shapeCast S2000x64 x0 h0 : FVec Ideal S2000x64 .f32) (broadcastTo S2000x64 (shapeCast S2000x1 x2 h2 : FVec Ideal S2000x1 .f32) hb2))
      (broadcastTo S2000x64 (shapeCast S1x64 x6 h6 : FVec Ideal S1x64 .f32) hb6) : FVec Ideal S2000x64 .f32) (ix2 p k)
      = x0 (ix2 p k) * x2 (ix2 p (0 : Fin 1)) + x6 (ix2 (0 : Fin 1) k) := by
  rw [addf_apply, mulf_apply, shapeCast_self, shapeCast_self, shapeCast_self,
    Cert.Keepdims.broadcastTo_a1_ab_apply, broadcastTo_1b_ab_apply]

/-- Shift by a block constant along each row, then subtract the log of the row sums of exponentials, at an entry. -/
theorem r2_lsm_core (v9 M12 : FVec Ideal S2000x64 .f32) (μ : EReal) (p : Fin 2000)
    (hM : ∀ k : Fin 64, M12 (ix2 p k) = μ)
    (hr : S2000x64.Reduces [1] S2000) (hc : S2000.ShapeCasts S2000x1) (hb : S2000x1.Broadcasts S2000x64) (q : Fin 64) :
    subf (subf v9 M12)
      (broadcastTo S2000x64 (log (shapeCast S2000x1 (multiReduction .add [1] S2000 (exp (subf v9 M12)) 0x00000000#32 hr (.inl rfl) rfl) hc)) hb) (ix2 p q)
      = (v9 (ix2 p q) - μ) - Ideal.log (∑ k : Fin 64, Ideal.exp (v9 (ix2 p k) - μ)) := by
  rw [subf_apply, subf_apply, hM q]
  refine congrArg (fun x => v9 (ix2 p q) - μ - x) ?_
  refine (Cert.Keepdims.broadcastTo_a1_ab_apply _ hb p q).trans ?_
  show Ideal.log (shapeCast S2000x1 _ hc (ix2 p (0 : Fin 1))) = _
  refine congrArg Ideal.log ?_
  refine (Cert.Keepdims.shapeCast_a_a1_apply _ hc p 0).trans ?_
  refine (Cert.Keepdims.sum_axis1_apply (exp (subf v9 M12)) _ hr _ _ p).trans ?_
  refine Finset.sum_congr rfl fun k _ => ?_
  show Ideal.exp (subf v9 M12 (ix2 p k)) = _
  rw [subf_apply, hM k]

/-- Row-wise log-softmax of a block, at an entry. -/
theorem r2_lsm_apply (v9 : FVec Ideal S2000x64 .f32)
    (hr : S2000x64.Reduces [1] S2000) (hc : S2000.ShapeCasts S2000x1) (hb : S2000x1.Broadcasts S2000x64)
    (p : Fin 2000) (q : Fin 64) :
    subf (subf v9 (broadcastTo S2000x64 (shapeCast S2000x1 (multiReduction .maximumf [1] S2000 v9 0xFF800000#32 hr (.inl rfl) rfl) hc) hb))
      (broadcastTo S2000x64 (log (shapeCast S2000x1 (multiReduction .add [1] S2000 (exp (subf v9 (broadcastTo S2000x64 (shapeCast S2000x1 (multiReduction .maximumf [1] S2000 v9 0xFF800000#32 hr (.inl rfl) rfl) hc) hb))) 0x00000000#32 hr (.inl rfl) rfl) hc)) hb) (ix2 p q)
      = r2_lsmRow (fun k => v9 (ix2 p k)) q :=
  r2_lsm_core v9 _ _ p (fun k =>
    (Cert.Keepdims.broadcastTo_a1_ab_apply _ hb p k).trans
      ((Cert.Keepdims.shapeCast_a_a1_apply _ hc p 0).trans (Cert.RowMax.max_axis1_apply v9 _ hr _ _ p))) hr hc hb q

/-- What the body stores, at an entry: the row-wise log-softmax of the scaled and shifted row. -/
theorem r2_pay_apply (x0 : FVec Ideal S2000x64 .f32) (x2 : FVec Ideal S2000x1 .f32) (x6 : FVec Ideal S1x64 .f32)
    (p : Fin 2000) (q : Fin 64) :
    k2_pay1 (F := Ideal) x0 x2 x6 (ix2 p q)
      = r2_lsmRow (fun k => x0 (ix2 p k) * x2 (ix2 p (0 : Fin 1)) + x6 (ix2 (0 : Fin 1) k)) q := by
  unfold k2_pay1
  refine (r2_lsm_apply _ _ _ _ p q).trans ?_
  exact congrArg (fun z => r2_lsmRow z q) (funext fun k => r2_affine_apply x0 x2 x6 _ _ _ _ _ p k)

/-- A block row that is the array's row `r`: what the body stores at that row is the whole-array function's entry at row `r`. -/
theorem r2_block_entry (A : S50000x64.Idx → EReal) (B : S1x64.Idx → EReal) (D : S50000x1.Idx → EReal)
    (x0 : FVec Ideal S2000x64 .f32) (x2 : FVec Ideal S2000x1 .f32) (x6 : FVec Ideal S1x64 .f32)
    (r : Fin 50000) (p : Fin 2000) (q : Fin 64)
    (e0 : ∀ k : Fin 64, x0 (ix2 p k) = A (ix2 r k))
    (e2 : x2 (ix2 p (0 : Fin 1)) = D (ix2 r (0 : Fin 1)))
    (e6 : ∀ k : Fin 64, x6 (ix2 (0 : Fin 1) k) = B (ix2 (0 : Fin 1) k)) :
    k2_pay1 (F := Ideal) x0 x2 x6 (ix2 p q) = K2 A B D (ix2 r q) := by
  rw [r2_pay_apply]
  show _ = r2_lsmRow (fun k => A (ix2 r k) * D (ix2 r (0 : Fin 1)) + B (ix2 (0 : Fin 1) k)) q
  exact congrArg (fun z => r2_lsmRow z q) (funext fun k => by rw [e0 k, e2, e6 k])

/-- The zero offsets, however spelt. -/
theorem r2_hz : (![0, 0] : Fin 2 → Nat) = fun _ => 0 := funext fun a => by fin_cases a <;> rfl

/-- The index maps over the grid: the row-block windows sit at block row `t`, column block 0; the bias row's window at
    block (0, 0). -/
theorem r2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- Block `t` of the aggregated sums is rows `2000·t …` of their array. -/
theorem r2_iblk0_apply (c : Dev nD) (t : Fin cfg2.N) (x : S2000x64.Idx) (k : S50000x64.Idx)
    (hk0 : (k 0).val = 2000 * t.val + (x 0).val) (hk1 : (k 1).val = (x 1).val) :
    (iblk2 V c 0 t : FVec Ideal S2000x64 .f32) x = (V c main_v40 : S50000x64.Idx → EReal) k := by
  obtain ⟨e00, e01, -⟩ := r2_idx_facts t
  unfold iblk2
  rw [View.read_apply, cast_eq]
  show (V c main_v40 : S50000x64.Idx → EReal) _ = V c main_v40 _
  congr 1
  funext a
  apply Fin.ext
  match a with
  | ⟨0, _⟩ => show win2_0.index t (0 : Fin 2) * 2000 + 1 * (x 0).val = (k 0).val; rw [e00, hk0]; omega
  | ⟨1, _⟩ => show win2_0.index t (1 : Fin 2) * 64 + 1 * (x 1).val = (k 1).val; rw [e01, hk1]; omega

/-- The bias row's block is the bias row at every point. -/
theorem r2_iblk1_apply (c : Dev nD) (t : Fin cfg2.N) (x : S1x64.Idx) :
    (iblk2 V c 1 t : FVec Ideal S1x64 .f32) x = (V c main_v41 : S1x64.Idx → EReal) x := by
  obtain ⟨-, -, e10, e11, -⟩ := r2_idx_facts t
  unfold iblk2
  rw [View.read_apply, cast_eq]
  show (V c main_v41 : S1x64.Idx → EReal) _ = V c main_v41 _
  congr 1
  funext a
  apply Fin.ext
  match a with
  | ⟨0, _⟩ => show win2_1.index t (0 : Fin 2) * 1 + 1 * (x 0).val = (x 0).val; rw [e10]; omega
  | ⟨1, _⟩ => show win2_1.index t (1 : Fin 2) * 64 + 1 * (x 1).val = (x 1).val; rw [e11]; omega

/-- Block `t` of the scale column is rows `2000·t …` of the column. -/
theorem r2_iblk2_apply (c : Dev nD) (t : Fin cfg2.N) (x : S2000x1.Idx) (k : S50000x1.Idx)
    (hk0 : (k 0).val = 2000 * t.val + (x 0).val) (hk1 : (k 1).val = (x 1).val) :
    (iblk2 V c 2 t : FVec Ideal S2000x1 .f32) x = (V c main_v15 : S50000x1.Idx → EReal) k := by
  obtain ⟨-, -, -, -, e20, e21, -⟩ := r2_idx_facts t
  unfold iblk2
  rw [View.read_apply, cast_eq]
  show (V c main_v15 : S50000x1.Idx → EReal) _ = V c main_v15 _
  congr 1
  funext a
  apply Fin.ext
  match a with
  | ⟨0, _⟩ => show win2_2.index t (0 : Fin 2) * 2000 + 1 * (x 0).val = (k 0).val; rw [e20, hk0]; omega
  | ⟨1, _⟩ => show win2_2.index t (1 : Fin 2) * 1 + 1 * (x 1).val = (k 1).val; rw [e21, hk1]; omega

/-- What point `t` writes back is block `t` of `K2` of the arrays the call found. -/
theorem r2_flushed_eq (c : Dev nD) (t : Fin cfg2.N) :
    (dat2 (F := Ideal) V c).flushed 3 t
      = ((cfg2.win 3).blk t).view.read (Elt Ideal) (K2 (V c main_v40) (V c main_v41) (V c main_v15)) := by
  show (cfg2.win 3).cut (grid2.coords t) ((dat2 (F := Ideal) V c).after 3 t) = _
  rw [after2_3]
  unfold out2_3
  rw [View.canon_unit_zero r2_hz]
  simp only [View.ld_unit_zero (S := S2000x64) r2_hz, View.ld_unit_zero (S := S2000x1) r2_hz, View.ld_unit_zero (S := S1x64) r2_hz]
  obtain ⟨-, -, -, -, -, -, e30, e31⟩ := r2_idx_facts t
  funext j
  have hj0 : (j 0).val < 2000 := (j 0).isLt
  have hj1 : (j 1).val < 64 := (j 1).isLt
  have ht : t.val < 25 := t.isLt
  rw [View.read_apply, cast_eq]
  have hx : (cfg2.win 3).xinj (grid2.coords t) j = ix2 (⟨(j 0).val, hj0⟩ : Fin 2000) (⟨(j 1).val, hj1⟩ : Fin 64) := by
    have h2 : ∀ a : Fin 2, (cfg2.win 3).xinj (grid2.coords t) j a = ix2 (⟨(j 0).val, hj0⟩ : Fin 2000) (⟨(j 1).val, hj1⟩ : Fin 64) a :=
      Fin.forall_fin_two.mpr ⟨rfl, rfl⟩
    exact funext h2
  have hr : ((cfg2.win 3).blk t).view.emb j = ix2 (⟨2000 * t.val + (j 0).val, by omega⟩ : Fin 50000) (⟨(j 1).val, hj1⟩ : Fin 64) := by
    funext a; apply Fin.ext
    match a with
    | ⟨0, _⟩ => show win2_3.index t (0 : Fin 2) * 2000 + 1 * (j 0).val = 2000 * t.val + (j 0).val; rw [e30]; omega
    | ⟨1, _⟩ => show win2_3.index t (1 : Fin 2) * 64 + 1 * (j 1).val = (j 1).val; rw [e31]; omega
  show k2_pay1 (F := Ideal) (iblk2 V c 0 t) (iblk2 V c 2 t) (iblk2 V c 1 t) ((cfg2.win 3).xinj (grid2.coords t) j) = K2 (V c main_v40) (V c main_v41) (V c main_v15) (((cfg2.win 3).blk t).view.emb j)
  rw [hx, hr]
  exact r2_block_entry (V c main_v40) (V c main_v41) (V c main_v15) (iblk2 V c 0 t) (iblk2 V c 2 t) (iblk2 V c 1 t) _ _ _
    (fun k => r2_iblk0_apply V c t _ _ rfl rfl) (r2_iblk2_apply V c t _ _ rfl rfl) (fun k => r2_iblk1_apply V c t _)
end

/-- An index of the output array is in point `t`'s block iff each coordinate is in the block's range on its axis. -/
theorem r2_mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v42).slice (win2_3.rect t)).set ↔ _
  rw [View.set_slice_whole, Rect.mem_set_unit]
  exact Iff.rfl

/-- Row `r` of the output array is in the block of point `r / 2000`. -/
theorem r2_cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  have hlt : (i 0).val / 2000 < cfg2.N := by rw [hN]; omega
  refine ⟨⟨(i 0).val / 2000, hlt⟩, flush2_3 _, ?_⟩
  rw [r2_mem_blk]
  obtain ⟨-, -, -, -, -, -, e30, e31⟩ := r2_idx_facts ⟨(i 0).val / 2000, hlt⟩
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, hlt⟩ (1 : Fin 2) * 64 ≤ (i 1).val ∧ (i 1).val < win2_3.index ⟨(i 0).val / 2000, hlt⟩ (1 : Fin 2) * 64 + 64
    rw [e31]; omega

/-- What the third kernel call leaves in its output array: the row-wise log-softmax of the scaled, shifted sums. -/
theorem region2_value (V : (c : Dev nD) → (b : Ref sig .tc) → Buf (Elt Ideal) ((c : Thread nD τ).loc b)) (c : Dev nD) :
    (Gen.dat2 (F := Ideal) V c).arrAt 3 cfg2.N = K2 (V c main_v40) (V c main_v41) (V c main_v15) :=
  (dat2 (F := Ideal) V c).arrAt_eq_of_cover 3 (K2 (V c main_v40) (V c main_v41) (V c main_v15))
    (fun t _ => r2_flushed_eq V c t) r2_cover

end Cert.Gcn

end
-- ==== Proof.AggRead.lean ====
/-
  The neighbour sums and the inverse square-root degrees on the extended reals.

  A scatter-add of rows into zero, whose updates are the rows a gather picks, read at `(n, c)`, is the sum over the
  edges whose destination word lands on node `n` of the entry `(row e, c)` of the node matrix, where `row e` is the
  node the edge's wrapped source word picks: the zero word is the real zero, the widening of a stored entry is the
  identity on the extended reals, and the one-column index array at row `e` is the index vector's word `e`. This is
  stated for the 128-column and the 64-column node matrix.

  The degree of a node is zero plus a one for every edge landing on it, a nonnegative real; hence the guarded
  inverse square root (`deg ^ (-1/2)` where `deg > 0`, zero elsewhere) is never negative and never `⊤`.
-/
import proofs.«110948_j44968307589409_2_alg».proof.Proof.Spec
import proofs.«110948_j44968307589409_2_alg».proof.Proof.LibRowIndex

noncomputable section

open scoped BigOperators

namespace Cert.Gcn

open Idealize.ShloMosaic Idealize.ShloMosaic.ValueIdx Cert.KernelIdeal Cert.KernelIdeal.Facts₀ Cert.Lib.RowIndex

/-- The one-column index array read at row `e` is the index vector's word `e`. -/
theorem agg_idxCol_apply (a : IVec S1650000 32) (e : Fin 1650000) :
    idxCol a (ix2 e (0 : Fin 1)) = a (ix1 e) := by
  unfold idxCol broadcastInDim
  refine congrArg a (funext fun k => Fin.ext ?_)
  obtain rfl : k = 0 := Subsingleton.elim _ _
  rw [dif_neg (show ¬ S1650000.size 0 = 1 by decide)]
  rfl

theorem agg128_eq (H : FVec Ideal S50000x128 .bf16) (src dst : IVec S1650000 32) :
    agg128 (F := Ideal) H src dst = aggI (C := 128) H src dst := by
  funext j
  obtain ⟨n, h, rfl⟩ : ∃ (n : Fin 50000) (h : Fin 128), j = ix2 n h := ⟨j 0, j 1, eq_ix2 j⟩
  unfold agg128
  refine (scatterAdd_rows_apply (N := 50000) (E := 1650000) (C := 128) _ _ _ _ n h).trans ?_
  rw [show (broadcastInDim S50000x128 ![] bcast_S_S50000x128 (constant (F := Ideal) S_ .f32 0x00000000#32)) (ix2 n h)
    = (0 : EReal) from Ideal.ofBits_zero_f32, zero_add]
  unfold aggI lands
  refine Finset.sum_congr (Finset.filter_congr fun e _ => by rw [agg_idxCol_apply]) fun e _ => ?_
  show Host.gather gather_S50000x128_S1650000x1_S1650000x128_1_0_n_n_0_1_1128 H (idxCol (wrapIdx src)) (ix2 e h) = _
  refine (gather_rows_apply (N := 50000) (E := 1650000) (C := 128) (by decide) _ H _ e h).trans ?_
  rw [agg_idxCol_apply]
  rfl

theorem agg64_eq (H : FVec Ideal S50000x64 .bf16) (src dst : IVec S1650000 32) :
    agg64 (F := Ideal) H src dst = aggI (C := 64) H src dst := by
  funext j
  obtain ⟨n, h, rfl⟩ : ∃ (n : Fin 50000) (h : Fin 64), j = ix2 n h := ⟨j 0, j 1, eq_ix2 j⟩
  unfold agg64
  refine (scatterAdd_rows_apply (N := 50000) (E := 1650000) (C := 64) _ _ _ _ n h).trans ?_
  rw [show (broadcastInDim S50000x64 ![] bcast_S_S50000x64 (constant (F := Ideal) S_ .f32 0x00000000#32)) (ix2 n h)
    = (0 : EReal) from Ideal.ofBits_zero_f32, zero_add]
  unfold aggI lands
  refine Finset.sum_congr (Finset.filter_congr fun e _ => by rw [agg_idxCol_apply]) fun e _ => ?_
  show Host.gather gather_S50000x64_S1650000x1_S1650000x64_1_0_n_n_0_1_164 H (idxCol (wrapIdx src)) (ix2 e h) = _
  refine (gather_rows_apply (N := 50000) (E := 1650000) (C := 64) (by decide) _ H _ e h).trans ?_
  rw [agg_idxCol_apply]
  rfl

/-- The f32 word of one is the real one. -/
theorem agg_one_f32 : Ideal.ofBits .f32 0x3F800000#32 = 1 := by
  simp [Ideal.ofBits, Ideal.ieee, -EReal.coe_mul]; norm_num

/-- A finite sum of ones is a nonnegative real. -/
theorem agg_sum_ones {ι : Type} (S : Finset ι) : ∃ r : ℝ, 0 ≤ r ∧ (∑ _e ∈ S, (1 : EReal)) = (r : EReal) := by
  classical
  induction S using Finset.induction_on with
  | empty => exact ⟨0, le_refl _, by simp⟩
  | insert a s ha ih =>
    obtain ⟨r, hr, hs⟩ := ih
    refine ⟨1 + r, by linarith, ?_⟩
    rw [Finset.sum_insert ha, hs]
    simp

/-- The degree of a node is a nonnegative real: zero plus a one for every edge landing on it. -/
theorem agg_deg_real (ei : IVec S2x1600000 32) (n : Fin 50000) :
    ∃ r : ℝ, 0 ≤ r ∧ degOf (F := Ideal) ei (ix1 n) = (r : EReal) := by
  obtain ⟨r, hr, hs⟩ := agg_sum_ones
    (Finset.univ.filter (fun e : Fin 1650000 => land 50000 (idxCol (dstOf ei) (ix2 e (0 : Fin 1))) = some n))
  refine ⟨r, hr, ?_⟩
  unfold degOf
  refine (scatterAdd_vec_apply (N := 50000) (E := 1650000) _ _ _ _ n).trans ?_
  rw [show (broadcastInDim S50000 ![] bcast_S_S50000 (constant (F := Ideal) S_ .f32 0x00000000#32)) (ix1 n)
    = (0 : EReal) from Ideal.ofBits_zero_f32, zero_add]
  refine Eq.trans (Finset.sum_congr rfl fun e _ => ?_) hs
  exact agg_one_f32

/-- At a nonnegative real degree the guarded inverse square root is a nonnegative real. -/
theorem agg_dinv_point (d : EReal) (r : ℝ) (hr : 0 ≤ r) (hd : d = (r : EReal)) :
    0 ≤ Scalar.select (Ideal.cmp .ogt d (Ideal.ofBits .f32 0x00000000#32)) (Ideal.rsqrt d) (Ideal.ofBits .f32 0x00000000#32)
    ∧ Scalar.select (Ideal.cmp .ogt d (Ideal.ofBits .f32 0x00000000#32)) (Ideal.rsqrt d) (Ideal.ofBits .f32 0x00000000#32) ≠ ⊤ := by
  subst hd
  rw [Ideal.ofBits_zero_f32]
  rcases hr.lt_or_eq with hpos | hz
  · have hc : Ideal.cmp .ogt (r : EReal) 0 = 1#1 := by
      have : (0 : EReal) < (r : EReal) := by exact_mod_cast hpos
      simp [Ideal.cmp, this]
    rw [hc, select_one, Ideal.rsqrt_coe, if_neg (not_lt.mpr hr), if_neg (ne_of_gt hpos)]
    exact ⟨by exact_mod_cast inv_nonneg.mpr (Real.sqrt_nonneg r), EReal.coe_ne_top _⟩
  · subst hz
    have hc : Ideal.cmp .ogt ((0 : ℝ) : EReal) 0 = 0#1 := by
      simp [Ideal.cmp]
    rw [hc, select_zero]
    exact ⟨le_refl _, EReal.zero_ne_top⟩

/-- The guarded inverse square root of ANY degree vector, read at a node where the degree is a nonnegative real. -/
theorem agg_dinv_of (deg : FVec Ideal S50000 .f32) (n : Fin 50000) (r : ℝ) (hr : 0 ≤ r) (hd : deg (ix1 n) = (r : EReal)) :
    0 ≤ (select (cmpf .ogt deg (broadcastInDim S50000 ![] bcast_S_S50000 (constant S_ .f32 0x00000000#32)))
          (Host.rsqrt deg) (broadcastInDim S50000 ![] bcast_S_S50000 (id (constant S_ .f32 0x00000000#32)))) (ix1 n)
    ∧ (select (cmpf .ogt deg (broadcastInDim S50000 ![] bcast_S_S50000 (constant S_ .f32 0x00000000#32)))
          (Host.rsqrt deg) (broadcastInDim S50000 ![] bcast_S_S50000 (id (constant S_ .f32 0x00000000#32)))) (ix1 n) ≠ ⊤ := by
  rw [select_apply, cmpf_apply, Ideal.cmpf_def]
  exact agg_dinv_point (deg (ix1 n)) r hr hd

theorem dinv_nonneg (ei : IVec S2x1600000 32) (n : Fin 50000) :
    0 ≤ dinvOf (F := Ideal) ei (ix1 n) ∧ dinvOf (F := Ideal) ei (ix1 n) ≠ ⊤ := by
  obtain ⟨r, hr, hdeg⟩ := agg_deg_real ei n
  unfold dinvOf
  exact agg_dinv_of (degOf (F := Ideal) ei) n r hr hdeg

end Cert.Gcn

end
-- ==== Proof.Algebra.lean ====
/-
  Two spellings of a two-layer graph convolution agree on the extended reals.

  One layer of the first spelling scales row n of a node matrix P by d n, sums the scaled rows over the edges that land
  on a node, and multiplies that node's sum by its own d. The second spelling multiplies the row an edge picks by
  d (source) · d (destination) inside the sum. The two agree because a factor d with 0 ≤ d < ⊤ distributes over any
  finite sum of extended reals (no finiteness of the summands is needed), because multiplication is associative, and
  because an edge that lands on node n picks node n as its destination: its word is not negative, so the wrap of
  negative words leaves it alone. The bias rows, the clamp at zero, the dense products and the row-wise log-softmax
  are the same functions in both spellings, so the equality of the inner layers carries outward by congruence.
-/
import proofs.«110948_j44968307589409_2_alg».proof.Proof.Spec
import proofs.«110948_j44968307589409_2_alg».proof.Proof.LibKeepdims
import Idealize.ShloMosaic.Lib.ValueLayout

noncomputable section

open scoped BigOperators

namespace Cert.Gcn

open Idealize.ShloMosaic Idealize.ShloMosaic.ValueIdx Cert.KernelIdeal Cert.KernelIdeal.Facts₀ Cert.Lib.RowIndex

/-! ## A nonnegative finite factor distributes over a finite sum -/

/-- For 0 ≤ d ≠ ⊤ and arbitrary extended-real summands, (∑ f) · d = ∑ (f · d). -/
theorem alg_sum_mul {ι : Type} (s : Finset ι) (f : ι → EReal) (d : EReal) (h0 : 0 ≤ d) (ht : d ≠ ⊤) :
    (∑ e ∈ s, f e) * d = ∑ e ∈ s, f e * d := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-! ## An edge that lands on a node picks that node -/

/-- The wrap's select on a word that is not negative keeps the word. -/
theorem alg_select_slt_zero (c t : BitVec 32) (h : 0 ≤ c.toInt) :
    Scalar.select (IntOp.cmpi .slt c 0#32) t c = c := by
  have hs : c.slt 0#32 = false := by
    simp only [BitVec.slt, BitVec.toInt_zero, decide_eq_false_iff_not, not_lt]
    exact h
  unfold Scalar.select IntOp.cmpi
  simp [hs]

/-- The wrap leaves a word that is not negative alone. -/
theorem alg_wrapIdx_of_nonneg (a : IVec S1650000 32) (e : Fin 1650000) (h : 0 ≤ (a (ix1 e)).toInt) :
    wrapIdx a (ix1 e) = a (ix1 e) :=
  alg_select_slt_zero (a (ix1 e)) (IntOp.addi (a (ix1 e)) 50000#32) h

/-- An edge among those landing on node n picks node n. -/
theorem alg_rowOf_of_lands (dst : IVec S1650000 32) (n : Fin 50000) (e : Fin 1650000) (he : e ∈ lands dst n) :
    rowOf dst e = n := by
  have hl : land 50000 (dst (ix1 e)) = some n := (Finset.mem_filter.mp he).2
  unfold rowOf
  rw [alg_wrapIdx_of_nonneg dst e (toInt_nonneg_of_land _ _ hl)]
  exact pick_of_land _ _ _ hl

/-! ## One layer -/

/-- One layer: rows scaled before the neighbour sum and the sum scaled after, against the sum of rows scaled by the
    edge's normalisation; the bias is the same on both sides. -/
theorem alg_layer {C : ℕ} (P : (⟨2, ![50000, C]⟩ : Shape).Idx → EReal) (D : S50000.Idx → EReal)
    (src dst : IVec S1650000 32) (hD : ∀ n : Fin 50000, 0 ≤ D (ix1 n) ∧ D (ix1 n) ≠ ⊤)
    (b : (⟨1, ![C]⟩ : Shape).Idx → EReal) (j : (⟨2, ![50000, C]⟩ : Shape).Idx) :
    aggI (C := C) (fun i => P i * D (ix1 (i 0))) src dst j * D (ix1 (j 0)) + b (ix1 (j 1))
      = convRef (C := C) P D src dst b j := by
  show (∑ e ∈ lands dst (j 0), P (ix2 (rowOf src e) (j 1)) * D (ix1 (rowOf src e))) * D (ix1 (j 0)) + b (ix1 (j 1))
    = (∑ e ∈ lands dst (j 0), P (ix2 (rowOf src e) (j 1)) * edgeNorm D src dst e) + b (ix1 (j 1))
  rw [alg_sum_mul _ _ _ (hD (j 0)).1 (hD (j 0)).2]
  refine congrArg (· + b (ix1 (j 1))) (Finset.sum_congr rfl fun e he => ?_)
  unfold edgeNorm
  rw [alg_rowOf_of_lands dst (j 0) e he, mul_assoc]

/-! ## The unit axes -/

theorem alg_col (D : S50000.Idx → EReal) (n : Fin 50000) : col D (ix2 n (0 : Fin 1)) = D (ix1 n) :=
  Cert.Keepdims.shapeCast_a_a1_apply D shapeCasts_S50000_S50000x1 n 0

theorem alg_row128 (b : S128.Idx → EReal) (k : Fin 128) : row128 b (ix2 (0 : Fin 1) k) = b (ix1 k) :=
  shapeCast_a_1a_apply b shapeCasts_S128_S1x128 0 k

theorem alg_row64 (b : S64.Idx → EReal) (k : Fin 64) : row64 b (ix2 (0 : Fin 1) k) = b (ix1 k) :=
  shapeCast_a_1a_apply b shapeCasts_S64_S1x64 0 k

/-! ## The two layers -/

theorem kernelOut_eq_refOut (X : S50000x128.Idx → EReal) (src dst : IVec S1650000 32) (D : S50000.Idx → EReal)
    (W1 : S128x128.Idx → EReal) (b1 : S128.Idx → EReal) (W2 : S128x64.Idx → EReal) (b2 : S64.Idx → EReal)
    (hD : ∀ n : Fin 50000, 0 ≤ D (ix1 n) ∧ D (ix1 n) ≠ ⊤) :
    kernelOut X src dst D W1 b1 W2 b2 = refOut X src dst D W1 b1 W2 b2 := by
  -- the first dense product with its rows scaled
  have hK0 : K0 X W1 (col D) = fun i => prodI (K := 128) (C := 128) X W1 i * D (ix1 (i 0)) := by
    funext i
    exact congrArg (prodI (K := 128) (C := 128) X W1 i * ·) (alg_col D (i 0))
  -- the first layer, clamped at zero
  have hR : reluAffine (aggI (C := 128) (K0 X W1 (col D)) src dst) (row128 b1) (col D)
      = fun i => max (convRef (C := 128) (prodI (K := 128) (C := 128) X W1) D src dst b1 i) 0 := by
    funext i
    have hc : col D (ix2 (i 0) (0 : Fin 1)) = D (ix1 (i 0)) := alg_col D (i 0)
    have hb : row128 b1 (ix2 (0 : Fin 1) (i 1)) = b1 (ix1 (i 1)) := alg_row128 b1 (i 1)
    show max (aggI (C := 128) (K0 X W1 (col D)) src dst i * col D (ix2 (i 0) (0 : Fin 1))
      + row128 b1 (ix2 (0 : Fin 1) (i 1))) 0 = _
    rw [hK0, hc, hb, alg_layer _ D src dst hD b1 i]
  -- the second dense product with its rows scaled
  have hK1 : K1 (aggI (C := 128) (K0 X W1 (col D)) src dst) (row128 b1) (col D) W2
      = fun i => prodI (K := 128) (C := 64)
          (fun i => max (convRef (C := 128) (prodI (K := 128) (C := 128) X W1) D src dst b1 i) 0) W2 i * D (ix1 (i 0)) := by
    funext i
    have hc : col D (ix2 (i 0) (0 : Fin 1)) = D (ix1 (i 0)) := alg_col D (i 0)
    show prodI (K := 128) (C := 64) (reluAffine (aggI (C := 128) (K0 X W1 (col D)) src dst) (row128 b1) (col D)) W2 i
      * col D (ix2 (i 0) (0 : Fin 1)) = _
    rw [hR, hc]
  -- the second layer
  have hA : affine64 (aggI (C := 64) (K1 (aggI (C := 128) (K0 X W1 (col D)) src dst) (row128 b1) (col D) W2) src dst)
        (row64 b2) (col D)
      = convRef (C := 64)
          (prodI (K := 128) (C := 64)
            (fun i => max (convRef (C := 128) (prodI (K := 128) (C := 128) X W1) D src dst b1 i) 0) W2)
          D src dst b2 := by
    funext i
    have hc : col D (ix2 (i 0) (0 : Fin 1)) = D (ix1 (i 0)) := alg_col D (i 0)
    have hb : row64 b2 (ix2 (0 : Fin 1) (i 1)) = b2 (ix1 (i 1)) := alg_row64 b2 (i 1)
    show aggI (C := 64) (K1 (aggI (C := 128) (K0 X W1 (col D)) src dst) (row128 b1) (col D) W2) src dst i
        * col D (ix2 (i 0) (0 : Fin 1)) + row64 b2 (ix2 (0 : Fin 1) (i 1)) = _
    rw [hK1, hc, hb, alg_layer _ D src dst hD b2 i]
  show logSoftmaxRows (affine64 (aggI (C := 64) (K1 (aggI (C := 128) (K0 X W1 (col D)) src dst) (row128 b1) (col D) W2) src dst)
        (row64 b2) (col D)) = _
  rw [hA]
  rfl

end Cert.Gcn

end
-- ==== Proof.RefFold.lean ====
/-
  The reference program's run, read in six stretches: every weakly fair execution of the reference ends with its
  result buffer at the last stage of the read-at-an-index chain applied to the six argument arrays, and with the
  argument arrays as they were. The list of the 98 host operations is cut in six consecutive stretches; the fold of a
  concatenation is the fold of the tail from what the head leaves; each stretch's result buffers are read, for any
  starting contents, as that stretch's stages applied to the contents it finds.
-/
import proofs.«110948_j44968307589409_2_alg».proof.Proof.RefRunP
import proofs.«110948_j44968307589409_2_alg».proof.Proof.RefReadP
import proofs.«110948_j44968307589409_2_alg».proof.Proof.LibCat

noncomputable section

namespace Cert.Gcn

open Cert.ReferenceIdeal Cert.ReferenceIdeal.Gen Idealize.ShloMosaic Idealize.ShloMosaic.TcCoe Idealize.SL.Sem Idealize.ShloMosaic.StableHlo

section Windows

variable {F : FTy → Type} [FloatOps F]

abbrev refrun_w0 : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

abbrev refrun_w1 : List (HloOp τ sig (Elt F)) :=
  [ nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

abbrev refrun_w2 : List (HloOp τ sig (Elt F)) :=
  [ nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

abbrev refrun_w3 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

abbrev refrun_w4 : List (HloOp τ sig (Elt F)) :=
  [ binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_9 (constantI S_ 32 0#32),
    unary main_c_9 main_v49 (broadcastInDim S1650000 ![] bcast_S_S1650000 : (⟨S_, .i32⟩ : BufTy).Contents (Elt F) → (⟨S1650000, .i32⟩ : BufTy).Contents (Elt F)),
    binary main_v3 main_v49 main_v50 (cmpi .slt : (⟨S1650000, .i32⟩ : BufTy).Contents (Elt F) → (⟨S1650000, .i32⟩ : BufTy).Contents (Elt F) → (⟨S1650000, .i1⟩ : BufTy).Contents (Elt F)),
    nullary main_c_10 (constantI S_ 32 50000#32),
    unary main_c_10 main_v51 (broadcastInDim S1650000 ![] bcast_S_S1650000 : (⟨S_, .i32⟩ : BufTy).Contents (Elt F) → (⟨S1650000, .i32⟩ : BufTy).Contents (Elt F)),
    binary main_v3 main_v51 main_v52 (addi : (⟨S1650000, .i32⟩ : BufTy).Contents (Elt F) → (⟨S1650000, .i32⟩ : BufTy).Contents (Elt F) → (⟨S1650000, .i32⟩ : BufTy).Contents (Elt F)),
    ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v53 main_v54 (broadcastInDim S1650000x1 ![0] bcast_S1650000_S1650000x1_0 : (⟨S1650000, .i32⟩ : BufTy).Contents (Elt F) → (⟨S1650000x1, .i32⟩ : BufTy).Contents (Elt F)),
    binary main_v48 main_v54 main_v55 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v29 main_v56 (broadcastInDim S1650000x1 ![0] bcast_S1650000_S1650000x1_0 : (⟨S1650000, .f32⟩ : BufTy).Contents (Elt F) → (⟨S1650000x1, .f32⟩ : BufTy).Contents (Elt F)),
    unary main_v56 main_v57 (broadcastInDim S1650000x64 ![0, 1] bcast_S1650000x1_S1650000x64_0_1 : (⟨S1650000x1, .f32⟩ : BufTy).Contents (Elt F) → (⟨S1650000x64, .f32⟩ : BufTy).Contents (Elt F)),
    binary main_v55 main_v57 main_v58 (mulf : (⟨S1650000x64, .f32⟩ : BufTy).Contents (Elt F) → (⟨S1650000x64, .f32⟩ : BufTy).Contents (Elt F) → (⟨S1650000x64, .f32⟩ : BufTy).Contents (Elt F)),
    nullary main_cst_11 (constant S_ .f32 0x00000000#32),
    unary main_cst_11 main_v59 (broadcastInDim S50000x64 ![] bcast_S_S50000x64 : (⟨S_, .f32⟩ : BufTy).Contents (Elt F) → (⟨S50000x64, .f32⟩ : BufTy).Contents (Elt F)),
    unary main_v6 main_v60 (broadcastInDim S1650000x1 ![0] bcast_S1650000_S1650000x1_0 : (⟨S1650000, .i32⟩ : BufTy).Contents (Elt F) → (⟨S1650000x1, .i32⟩ : BufTy).Contents (Elt F)),
    ternary main_v59 main_v60 main_v58 main_v61 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)) ]

abbrev refrun_w5 : List (HloOp τ sig (Elt F)) :=
  [ TRef.nullary (TRef.of (T := ⟨S_, .f32⟩) main_call2_cst) (constant S_ .f32 0xFF800000#32),
    TRef.binary (TRef.of (T := ⟨S50000x64, .f32⟩) main_v64) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v64) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v65) subf ]

set_option maxRecDepth 8192 in
/-- The list of the reference's operations is the six stretches in a row. -/
theorem refrun_ops_cut : (ValueP.ops : List (HloOp τ sig (Elt F))) = refrun_w0 ++ (refrun_w1 ++ (refrun_w2 ++ (refrun_w3 ++ (refrun_w4 ++ refrun_w5)))) := rfl

/-! ## What each stretch leaves alone -/

/-- The references the operations of stretch 0 write. -/
abbrev refrun_W0 : List (Ref sig .tc) := [main_v0, main_v1, main_v2, main_v3, main_v4, main_v5, main_v6]
theorem refrun_w0_writes : (refrun_w0 : List (HloOp τ sig (Elt F))).Forall fun op => op.writes ⊆ (refrun_W0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
/-- A reference stretch 0 does not write keeps its contents. -/
theorem refrun_w0_kept (W : Valuation τ sig (Elt F)) (r : Ref sig .tc) (h : r ∉ refrun_W0) :
    after refrun_w0 W (Proc.devRef .tc r) = W (Proc.devRef .tc r) :=
  StableHlo.after_of_writes_sub refrun_w0 W refrun_w0_writes h

/-- The references the operations of stretch 1 write. -/
abbrev refrun_W1 : List (Ref sig .tc) := [main_cst, main_v7, main_cst_0, main_v8, main_v9, main_v10, main_cst_1, main_v11, main_v12, main_v13, main_cst_2, main_call0_v0, main_call0_v1, main_v14]
theorem refrun_w1_writes : (refrun_w1 : List (HloOp τ sig (Elt F))).Forall fun op => op.writes ⊆ (refrun_W1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
/-- A reference stretch 1 does not write keeps its contents. -/
theorem refrun_w1_kept (W : Valuation τ sig (Elt F)) (r : Ref sig .tc) (h : r ∉ refrun_W1) :
    after refrun_w1 W (Proc.devRef .tc r) = W (Proc.devRef .tc r) :=
  StableHlo.after_of_writes_sub refrun_w1 W refrun_w1_writes h

/-- The references the operations of stretch 2 write. -/
abbrev refrun_W2 : List (Ref sig .tc) := [main_c, main_v15, main_v16, main_c_3, main_v17, main_v18, main_v19, main_v20, main_v21, main_c_4, main_v22, main_v23, main_c_5, main_v24, main_v25, main_v26, main_v27, main_v28, main_v29]
theorem refrun_w2_writes : (refrun_w2 : List (HloOp τ sig (Elt F))).Forall fun op => op.writes ⊆ (refrun_W2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
/-- A reference stretch 2 does not write keeps its contents. -/
theorem refrun_w2_kept (W : Valuation τ sig (Elt F)) (r : Ref sig .tc) (h : r ∉ refrun_W2) :
    after refrun_w2 W (Proc.devRef .tc r) = W (Proc.devRef .tc r) :=
  StableHlo.after_of_writes_sub refrun_w2 W refrun_w2_writes h

/-- The references the operations of stretch 3 write. -/
abbrev refrun_W3 : List (Ref sig .tc) := [main_v30, main_c_6, main_v31, main_v32, main_c_7, main_v33, main_v34, main_v35, main_v36, main_v37, main_v38, main_v39, main_v40, main_cst_8, main_v41, main_v42, main_v43, main_v44, main_v45, main_v46, main_call1_cst, main_call1_v0, main_v47]
theorem refrun_w3_writes : (refrun_w3 : List (HloOp τ sig (Elt F))).Forall fun op => op.writes ⊆ (refrun_W3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
/-- A reference stretch 3 does not write keeps its contents. -/
theorem refrun_w3_kept (W : Valuation τ sig (Elt F)) (r : Ref sig .tc) (h : r ∉ refrun_W3) :
    after refrun_w3 W (Proc.devRef .tc r) = W (Proc.devRef .tc r) :=
  StableHlo.after_of_writes_sub refrun_w3 W refrun_w3_writes h

/-- The references the operations of stretch 4 write. -/
abbrev refrun_W4 : List (Ref sig .tc) := [main_v48, main_c_9, main_v49, main_v50, main_c_10, main_v51, main_v52, main_v53, main_v54, main_v55, main_v56, main_v57, main_v58, main_cst_11, main_v59, main_v60, main_v61, main_v62, main_v63, main_v64]
theorem refrun_w4_writes : (refrun_w4 : List (HloOp τ sig (Elt F))).Forall fun op => op.writes ⊆ (refrun_W4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
/-- A reference stretch 4 does not write keeps its contents. -/
theorem refrun_w4_kept (W : Valuation τ sig (Elt F)) (r : Ref sig .tc) (h : r ∉ refrun_W4) :
    after refrun_w4 W (Proc.devRef .tc r) = W (Proc.devRef .tc r) :=
  StableHlo.after_of_writes_sub refrun_w4 W refrun_w4_writes h

/-- The references the operations of stretch 5 write. -/
abbrev refrun_W5 : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v65]
theorem refrun_w5_writes : (refrun_w5 : List (HloOp τ sig (Elt F))).Forall fun op => op.writes ⊆ (refrun_W5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
/-- A reference stretch 5 does not write keeps its contents. -/
theorem refrun_w5_kept (W : Valuation τ sig (Elt F)) (r : Ref sig .tc) (h : r ∉ refrun_W5) :
    after refrun_w5 W (Proc.devRef .tc r) = W (Proc.devRef .tc r) :=
  StableHlo.after_of_writes_sub refrun_w5 W refrun_w5_writes h

/-! ## The result buffers of each stretch, for any contents it starts from -/

/-- Stretch 0: the edges' source words. -/
theorem refrun_w0_v3 (W : Valuation τ sig (Elt F)) (x1 : (⟨S2x1600000, .i32⟩ : BufTy).Contents (Elt F))
    (h1 : W (Proc.devRef .tc main_arg1) = x1) :
    after refrun_w0 W (Proc.devRef .tc main_v3) = ReadP.val_main_v3 (F := F) x1 := by
  subst h1
  after_results_simp
  finish_results_rw
  rfl

/-- Stretch 0: the edges' destination words. -/
theorem refrun_w0_v6 (W : Valuation τ sig (Elt F)) (x1 : (⟨S2x1600000, .i32⟩ : BufTy).Contents (Elt F))
    (h1 : W (Proc.devRef .tc main_arg1) = x1) :
    after refrun_w0 W (Proc.devRef .tc main_v6) = ReadP.val_main_v6 (F := F) x1 := by
  subst h1
  after_results_simp
  finish_results_rw
  rfl

/-- Stretch 1: the inverse square roots of the degrees, of the destination words it finds. -/
theorem refrun_w1_v14 (W : Valuation τ sig (Elt F)) (x1 : (⟨S2x1600000, .i32⟩ : BufTy).Contents (Elt F))
    (h6 : W (Proc.devRef .tc main_v6) = ReadP.val_main_v6 (F := F) x1) :
    after refrun_w1 W (Proc.devRef .tc main_v14) = ReadP.val_main_v14 (F := F) x1 := by
  after_results_simp
  simp only [Cert.Lib.ofBuf_toBuf]
  rw [h6]
  rfl

/-- Stretch 2: the edges' normalisations, of the index words and the inverse square roots it finds. -/
theorem refrun_w2_v29 (W : Valuation τ sig (Elt F)) (x1 : (⟨S2x1600000, .i32⟩ : BufTy).Contents (Elt F))
    (h3 : W (Proc.devRef .tc main_v3) = ReadP.val_main_v3 (F := F) x1)
    (h6 : W (Proc.devRef .tc main_v6) = ReadP.val_main_v6 (F := F) x1)
    (h14 : W (Proc.devRef .tc main_v14) = ReadP.val_main_v14 (F := F) x1) :
    after refrun_w2 W (Proc.devRef .tc main_v29) = ReadP.val_main_v29 (F := F) x1 := by
  after_results_simp
  rw [h3, h6, h14]
  rfl

/-- Stretch 3: the first layer and its clamp at zero. -/
theorem refrun_w3_v47 (W : Valuation τ sig (Elt F)) (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (h0 : W (Proc.devRef .tc main_arg0) = x0) (h2 : W (Proc.devRef .tc main_arg2) = x2) (h3' : W (Proc.devRef .tc main_arg3) = x3)
    (h3 : W (Proc.devRef .tc main_v3) = ReadP.val_main_v3 (F := F) x1)
    (h6 : W (Proc.devRef .tc main_v6) = ReadP.val_main_v6 (F := F) x1)
    (h29 : W (Proc.devRef .tc main_v29) = ReadP.val_main_v29 (F := F) x1) :
    after refrun_w3 W (Proc.devRef .tc main_v47) = ReadP.val_main_v47 (F := F) x0 x1 x2 x3 := by
  subst h0 h2 h3'
  after_results_simp
  simp only [Cert.Lib.ofBuf_toBuf]
  rw [h3, h6, h29]
  rfl

/-- Stretch 4: the second layer. -/
theorem refrun_w4_v64 (W : Valuation τ sig (Elt F)) (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h4 : W (Proc.devRef .tc main_arg4) = x4) (h5 : W (Proc.devRef .tc main_arg5) = x5)
    (h3 : W (Proc.devRef .tc main_v3) = ReadP.val_main_v3 (F := F) x1)
    (h6 : W (Proc.devRef .tc main_v6) = ReadP.val_main_v6 (F := F) x1)
    (h29 : W (Proc.devRef .tc main_v29) = ReadP.val_main_v29 (F := F) x1)
    (h47 : W (Proc.devRef .tc main_v47) = ReadP.val_main_v47 (F := F) x0 x1 x2 x3) :
    after refrun_w4 W (Proc.devRef .tc main_v64) = ReadP.val_main_v64 (F := F) x0 x1 x2 x3 x4 x5 := by
  subst h4 h5
  after_results_simp
  rw [h3, h6, h29, h47]
  rfl

/-- Stretch 5: the row-wise log-softmax. -/
theorem refrun_w5_v65 (W : Valuation τ sig (Elt F)) (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h64 : W (Proc.devRef .tc main_v64) = ReadP.val_main_v64 (F := F) x0 x1 x2 x3 x4 x5) :
    after refrun_w5 W (Proc.devRef .tc main_v65) = ReadP.val_main_v65 (F := F) x0 x1 x2 x3 x4 x5 := by
  after_results_simp
  simp only [Cert.Lib.ofBuf_toBuf]
  rw [h64]
  rfl

end Windows

/-! ## The whole run -/

section Fold

variable {F : FTy → Type} [FloatOps F] (m : (ℓ : Loc nD τ sig) → Buf (Elt F) ℓ)

/-- No operation writes an argument: none of the six stretches does. -/
theorem refrun_arg_kept (V : Valuation τ sig (Elt F)) (r : Ref sig .tc)
    (h0 : r ∉ refrun_W0) (h1 : r ∉ refrun_W1) (h2 : r ∉ refrun_W2) (h3 : r ∉ refrun_W3) (h4 : r ∉ refrun_W4) (h5 : r ∉ refrun_W5) :
    after (ValueP.ops (F := F)) V (Proc.devRef .tc r) = V (Proc.devRef .tc r) := by
  rw [refrun_ops_cut, Cert.Lib.after_append, Cert.Lib.after_append, Cert.Lib.after_append, Cert.Lib.after_append, Cert.Lib.after_append,
    refrun_w5_kept _ r h5, refrun_w4_kept _ r h4, refrun_w3_kept _ r h3, refrun_w2_kept _ r h2, refrun_w1_kept _ r h1, refrun_w0_kept _ r h0]

/-- The fold of the 98 operations at the result buffer: the last stage of the chain, of the launch's argument arrays. -/
theorem refrun_fold_v65 (c : Dev nD) :
    after (ValueP.ops (F := F)) (launchContents m c) (Proc.devRef .tc main_v65)
      = ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [refrun_ops_cut, Cert.Lib.after_append, Cert.Lib.after_append, Cert.Lib.after_append, Cert.Lib.after_append, Cert.Lib.after_append]
  generalize hV0 : launchContents m c = V0
  have a0 : V0 (Proc.devRef .tc main_arg0) = (m ((c.tc : Thread nD τ).loc main_arg0)) := by subst hV0; rfl
  have a1 : V0 (Proc.devRef .tc main_arg1) = (m ((c.tc : Thread nD τ).loc main_arg1)) := by subst hV0; rfl
  have a2 : V0 (Proc.devRef .tc main_arg2) = (m ((c.tc : Thread nD τ).loc main_arg2)) := by subst hV0; rfl
  have a3 : V0 (Proc.devRef .tc main_arg3) = (m ((c.tc : Thread nD τ).loc main_arg3)) := by subst hV0; rfl
  have a4 : V0 (Proc.devRef .tc main_arg4) = (m ((c.tc : Thread nD τ).loc main_arg4)) := by subst hV0; rfl
  have a5 : V0 (Proc.devRef .tc main_arg5) = (m ((c.tc : Thread nD τ).loc main_arg5)) := by subst hV0; rfl
  -- after stretch 0
  have v3_1 := refrun_w0_v3 V0 _ a1
  have v6_1 := refrun_w0_v6 V0 _ a1
  have k1 := refrun_w0_kept V0
  generalize after refrun_w0 V0 = V1 at *
  -- after stretch 1
  have v14_2 := refrun_w1_v14 V1 _ v6_1
  have k2 := refrun_w1_kept V1
  generalize after refrun_w1 V1 = V2 at *
  have v3_2 := (k2 main_v3 (by decide)).trans v3_1
  have v6_2 := (k2 main_v6 (by decide)).trans v6_1
  -- after stretch 2
  have v29_3 := refrun_w2_v29 V2 _ v3_2 v6_2 v14_2
  have k3 := refrun_w2_kept V2
  generalize after refrun_w2 V2 = V3 at *
  have v3_3 := (k3 main_v3 (by decide)).trans v3_2
  have v6_3 := (k3 main_v6 (by decide)).trans v6_2
  have a0_3 := (k3 main_arg0 (by decide)).trans ((k2 main_arg0 (by decide)).trans ((k1 main_arg0 (by decide)).trans a0))
  have a2_3 := (k3 main_arg2 (by decide)).trans ((k2 main_arg2 (by decide)).trans ((k1 main_arg2 (by decide)).trans a2))
  have a3_3 := (k3 main_arg3 (by decide)).trans ((k2 main_arg3 (by decide)).trans ((k1 main_arg3 (by decide)).trans a3))
  have a4_3 := (k3 main_arg4 (by decide)).trans ((k2 main_arg4 (by decide)).trans ((k1 main_arg4 (by decide)).trans a4))
  have a5_3 := (k3 main_arg5 (by decide)).trans ((k2 main_arg5 (by decide)).trans ((k1 main_arg5 (by decide)).trans a5))
  -- after stretch 3
  have v47_4 := refrun_w3_v47 V3 _ _ _ _ a0_3 a2_3 a3_3 v3_3 v6_3 v29_3
  have k4 := refrun_w3_kept V3
  generalize after refrun_w3 V3 = V4 at *
  have v3_4 := (k4 main_v3 (by decide)).trans v3_3
  have v6_4 := (k4 main_v6 (by decide)).trans v6_3
  have v29_4 := (k4 main_v29 (by decide)).trans v29_3
  have a4_4 := (k4 main_arg4 (by decide)).trans a4_3
  have a5_4 := (k4 main_arg5 (by decide)).trans a5_3
  -- after stretch 4, and stretch 5
  have v64_5 := refrun_w4_v64 V4 _ _ _ _ _ _ a4_4 a5_4 v3_4 v6_4 v29_4 v47_4
  exact refrun_w5_v65 _ _ _ _ _ _ _ v64_5

end Fold

open Cert.ReferenceIdeal in
/-- Every weakly fair execution of the reference ends with its result buffer at the chain's last stage of the launch's
    argument arrays, and with the six argument arrays as launched. -/
theorem ref_run {F : FTy → Type} [FloatOps F] (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v65) = Cert.ReferenceIdeal.ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = (m ((c.tc : Thread nD τ).loc main_arg0)) ∧ r.2.mem ((c.tc : Thread nD τ).loc main_arg1) = (m ((c.tc : Thread nD τ).loc main_arg1))
      ∧ r.2.mem ((c.tc : Thread nD τ).loc main_arg2) = (m ((c.tc : Thread nD τ).loc main_arg2)) ∧ r.2.mem ((c.tc : Thread nD τ).loc main_arg3) = (m ((c.tc : Thread nD τ).loc main_arg3))
      ∧ r.2.mem ((c.tc : Thread nD τ).loc main_arg4) = (m ((c.tc : Thread nD τ).loc main_arg4)) ∧ r.2.mem ((c.tc : Thread nD τ).loc main_arg5) = (m ((c.tc : Thread nD τ).loc main_arg5))) :=
  (θ_run (Cert.ReferenceIdeal.defs (F := F)) _ _).mono (fun _ h c =>
    ⟨(h c main_v65).trans (refrun_fold_v65 m c),
     (h c main_arg0).trans (refrun_arg_kept _ main_arg0 (by decide) (by decide) (by decide) (by decide) (by decide) (by decide)),
     (h c main_arg1).trans (refrun_arg_kept _ main_arg1 (by decide) (by decide) (by decide) (by decide) (by decide) (by decide)),
     (h c main_arg2).trans (refrun_arg_kept _ main_arg2 (by decide) (by decide) (by decide) (by decide) (by decide) (by decide)),
     (h c main_arg3).trans (refrun_arg_kept _ main_arg3 (by decide) (by decide) (by decide) (by decide) (by decide) (by decide)),
     (h c main_arg4).trans (refrun_arg_kept _ main_arg4 (by decide) (by decide) (by decide) (by decide) (by decide) (by decide)),
     (h c main_arg5).trans (refrun_arg_kept _ main_arg5 (by decide) (by decide) (by decide) (by decide) (by decide) (by decide))⟩)
    (ValueP.run_raw m ρ)

end Cert.Gcn

end
-- ==== Proof.RefValue.lean ====
/-
  The jnp reference's result as the Spec's reference chain, on the extended reals.

  The reference computes, stage by stage: the edges' source and destination words; dinv = deg^(-1/2); each edge's
  normalisation dinv (row src e) · dinv (row dst e); the dense product X · W1; for every node the sum, over the edges
  landing on it, of the picked product row times the edge's normalisation, plus the bias; the clamp at zero; the same
  layer again with W2 and b2; and a row-wise log-softmax. Each stage is read here at an index and identified with the
  Spec's function of the same name: a row gather reads the row its index word picks, a row scatter-add into zero is
  the sum over the edges whose word lands on the row, a plain contraction is the sum over the inner axis, the maximum
  reduce from −∞ is the fold of max over the row, and the float sum from the zero word is the finite sum. The last
  theorem composes the stages into refOut.
-/
import proofs.«110948_j44968307589409_2_alg».proof.Proof.RefReadP
import proofs.«110948_j44968307589409_2_alg».proof.Proof.Spec
import proofs.«110948_j44968307589409_2_alg».proof.Proof.LibRowIndex
import proofs.«110948_j44968307589409_2_alg».proof.Proof.LibPlainDot

noncomputable section

open scoped BigOperators

namespace Cert.Gcn

open Idealize.ShloMosaic Idealize.ShloMosaic.ValueIdx Cert.KernelIdeal Cert.KernelIdeal.Facts₀ Cert.Lib.RowIndex
open Cert.ReferenceIdeal.ReadP

/-! ## The index words and the scale vector: the reference spells the same terms -/

theorem ref_v3 (x1 : IVec S2x1600000 32) : val_main_v3 (F := Ideal) x1 = srcOf x1 := rfl
theorem ref_v6 (x1 : IVec S2x1600000 32) : val_main_v6 (F := Ideal) x1 = dstOf x1 := rfl
theorem ref_v19 (x1 : IVec S2x1600000 32) : val_main_v19 (F := Ideal) x1 = wrapIdx (srcOf x1) := rfl
theorem ref_v26 (x1 : IVec S2x1600000 32) : val_main_v26 (F := Ideal) x1 = wrapIdx (dstOf x1) := rfl
theorem ref_v35 (x1 : IVec S2x1600000 32) : val_main_v35 (F := Ideal) x1 = wrapIdx (srcOf x1) := rfl
theorem ref_v53 (x1 : IVec S2x1600000 32) : val_main_v53 (F := Ideal) x1 = wrapIdx (srcOf x1) := rfl
theorem ref_v14 (x1 : IVec S2x1600000 32) : val_main_v14 (F := Ideal) x1 = dinvOf (F := Ideal) x1 := rfl

/-- The one column of an index array at edge e reads the index vector at e. -/
theorem ref_colIdx (e : Fin 1650000) :
    (fun a : Fin 1 => match a with
      | ⟨0, _⟩ => (⟨((ix2 e (0 : Fin 1) : (⟨2, ![1650000, 1]⟩ : Shape).Idx) 0).val, ((ix2 e (0 : Fin 1) : (⟨2, ![1650000, 1]⟩ : Shape).Idx) 0).isLt⟩ : Fin 1650000))
      = (ix1 e : (⟨1, ![1650000]⟩ : Shape).Idx) :=
  funext fun a => by match a with | ⟨0, _⟩ => rfl

theorem ref_v20_at (x1 : IVec S2x1600000 32) (e : Fin 1650000) :
    val_main_v20 (F := Ideal) x1 (ix2 e (0 : Fin 1)) = wrapIdx (srcOf x1) (ix1 e) := by
  rw [val_main_v20_apply, ref_v19]
  exact congrArg (wrapIdx (srcOf x1)) (ref_colIdx e)

theorem ref_v27_at (x1 : IVec S2x1600000 32) (e : Fin 1650000) :
    val_main_v27 (F := Ideal) x1 (ix2 e (0 : Fin 1)) = wrapIdx (dstOf x1) (ix1 e) := by
  rw [val_main_v27_apply, ref_v26]
  exact congrArg (wrapIdx (dstOf x1)) (ref_colIdx e)

theorem ref_v36_at (x1 : IVec S2x1600000 32) (e : Fin 1650000) :
    val_main_v36 (F := Ideal) x1 (ix2 e (0 : Fin 1)) = wrapIdx (srcOf x1) (ix1 e) := by
  rw [val_main_v36_apply, ref_v35]
  exact congrArg (wrapIdx (srcOf x1)) (ref_colIdx e)

theorem ref_v54_at (x1 : IVec S2x1600000 32) (e : Fin 1650000) :
    val_main_v54 (F := Ideal) x1 (ix2 e (0 : Fin 1)) = wrapIdx (srcOf x1) (ix1 e) := by
  rw [val_main_v54_apply, ref_v53]
  exact congrArg (wrapIdx (srcOf x1)) (ref_colIdx e)

theorem ref_v42_at (x1 : IVec S2x1600000 32) (e : Fin 1650000) :
    val_main_v42 (F := Ideal) x1 (ix2 e (0 : Fin 1)) = dstOf x1 (ix1 e) := by
  rw [val_main_v42_apply, ref_v6]
  exact congrArg (dstOf x1) (ref_colIdx e)

theorem ref_v60_at (x1 : IVec S2x1600000 32) (e : Fin 1650000) :
    val_main_v60 (F := Ideal) x1 (ix2 e (0 : Fin 1)) = dstOf x1 (ix1 e) := by
  rw [val_main_v60_apply, ref_v6]
  exact congrArg (dstOf x1) (ref_colIdx e)

/-! ## The edge normalisation -/

theorem ref_v21_at (x1 : IVec S2x1600000 32) (e : Fin 1650000) :
    val_main_v21 (F := Ideal) x1 (ix1 e) = dinvOf (F := Ideal) x1 (ix1 (rowOf (srcOf x1) e)) := by
  unfold val_main_v21
  refine (gather_vec_apply (N := 50000) (E := 1650000) (by decide)
    Cert.ReferenceIdeal.Gen.gather_S50000_S1650000x1_S1650000_n_0_n_n_0_1_1_wf
    (val_main_v14 (F := Ideal) x1) (val_main_v20 (F := Ideal) x1) e).trans ?_
  rw [ref_v20_at, ref_v14]
  rfl

theorem ref_v28_at (x1 : IVec S2x1600000 32) (e : Fin 1650000) :
    val_main_v28 (F := Ideal) x1 (ix1 e) = dinvOf (F := Ideal) x1 (ix1 (rowOf (dstOf x1) e)) := by
  unfold val_main_v28
  refine (gather_vec_apply (N := 50000) (E := 1650000) (by decide)
    Cert.ReferenceIdeal.Gen.gather_S50000_S1650000x1_S1650000_n_0_n_n_0_1_1_wf
    (val_main_v14 (F := Ideal) x1) (val_main_v27 (F := Ideal) x1) e).trans ?_
  rw [ref_v27_at, ref_v14]
  rfl

theorem ref_v29_at (x1 : IVec S2x1600000 32) (e : Fin 1650000) :
    val_main_v29 (F := Ideal) x1 (ix1 e) = edgeNorm (dinvOf (F := Ideal) x1) (srcOf x1) (dstOf x1) e := by
  rw [val_main_v29_apply, ref_v21_at, ref_v28_at]
  rfl

/-! ## The first layer -/

theorem ref_v30 (x0 : S50000x128.Idx → EReal) (x2 : S128x128.Idx → EReal) :
    val_main_v30 (F := Ideal) x0 x2 = prodI (K := 128) (C := 128) x0 x2 := by
  funext i
  rw [val_main_v30_apply]
  refine Finset.sum_congr rfl fun k _ => ?_
  have hl : lidx_main_v30 i k = ix2 (i 0) k := funext fun a => by
    match a with
    | ⟨0, _⟩ => rfl
    | ⟨1, _⟩ => rfl
  have hr : ridx_main_v30 i k = ix2 k (i 1) := funext fun a => by
    match a with
    | ⟨0, _⟩ => rfl
    | ⟨1, _⟩ => rfl
  exact congrArg₂ (fun a b : EReal => a * b) (congrArg x0 hl) (congrArg x2 hr)

theorem ref_v37_at (x0 : S50000x128.Idx → EReal) (x1 : IVec S2x1600000 32) (x2 : S128x128.Idx → EReal)
    (e : Fin 1650000) (c : Fin 128) :
    val_main_v37 (F := Ideal) x0 x1 x2 (ix2 e c)
      = prodI (K := 128) (C := 128) x0 x2 (ix2 (rowOf (srcOf x1) e) c) := by
  unfold val_main_v37
  refine (gather_rows_apply (N := 50000) (E := 1650000) (C := 128) (by decide)
    Cert.ReferenceIdeal.Gen.gather_S50000x128_S1650000x1_S1650000x128_1_0_n_n_0_1_1128_wf
    (val_main_v30 (F := Ideal) x0 x2) (val_main_v36 (F := Ideal) x1) e c).trans ?_
  rw [ref_v36_at, ref_v30]
  rfl

theorem ref_v39_at (x1 : IVec S2x1600000 32) (e : Fin 1650000) (c : Fin 128) :
    val_main_v39 (F := Ideal) x1 (ix2 e c) = val_main_v29 (F := Ideal) x1 (ix1 e) := by
  rw [val_main_v39_apply, val_main_v38_apply]
  exact congrArg (val_main_v29 (F := Ideal) x1) (funext fun a => by match a with | ⟨0, _⟩ => rfl)

theorem ref_v40_at (x0 : S50000x128.Idx → EReal) (x1 : IVec S2x1600000 32) (x2 : S128x128.Idx → EReal)
    (e : Fin 1650000) (c : Fin 128) :
    val_main_v40 (F := Ideal) x0 x1 x2 (ix2 e c)
      = prodI (K := 128) (C := 128) x0 x2 (ix2 (rowOf (srcOf x1) e) c)
          * edgeNorm (dinvOf (F := Ideal) x1) (srcOf x1) (dstOf x1) e := by
  rw [val_main_v40_apply, ref_v37_at, ref_v39_at, ref_v29_at]
  rfl

theorem ref_v41_at (i : S50000x128.Idx) : val_main_v41 (F := Ideal) i = 0 := by
  rw [val_main_v41_apply, val_main_cst_8_apply]
  exact Ideal.ofBits_zero_f32

theorem ref_v43_at (x0 : S50000x128.Idx → EReal) (x1 : IVec S2x1600000 32) (x2 : S128x128.Idx → EReal)
    (n : Fin 50000) (c : Fin 128) :
    val_main_v43 (F := Ideal) x0 x1 x2 (ix2 n c)
      = ∑ e ∈ lands (dstOf x1) n, prodI (K := 128) (C := 128) x0 x2 (ix2 (rowOf (srcOf x1) e) c)
          * edgeNorm (dinvOf (F := Ideal) x1) (srcOf x1) (dstOf x1) e := by
  unfold val_main_v43
  refine (scatterAdd_rows_apply (N := 50000) (E := 1650000) (C := 128)
    Cert.ReferenceIdeal.Gen.scatter_S50000x128_S1650000x1_S1650000x128_1_0_0_1_wf
    (val_main_v41 (F := Ideal)) (val_main_v42 (F := Ideal) x1) (val_main_v40 (F := Ideal) x0 x1 x2) n c).trans ?_
  rw [ref_v41_at, zero_add]
  unfold lands
  refine Finset.sum_congr (Finset.filter_congr fun e _ => ?_) fun e _ => ref_v40_at x0 x1 x2 e c
  rw [ref_v42_at]

theorem ref_v45_at (x3 : S128.Idx → EReal) (i : S50000x128.Idx) :
    val_main_v45 (F := Ideal) x3 i = x3 (ix1 (i 1)) := by
  rw [val_main_v45_apply, val_main_v44_apply]
  exact congrArg x3 (funext fun a => by match a with | ⟨0, _⟩ => rfl)

theorem ref_v46 (x0 : S50000x128.Idx → EReal) (x1 : IVec S2x1600000 32) (x2 : S128x128.Idx → EReal)
    (x3 : S128.Idx → EReal) :
    val_main_v46 (F := Ideal) x0 x1 x2 x3
      = convRef (C := 128) (prodI (K := 128) (C := 128) x0 x2) (dinvOf (F := Ideal) x1) (srcOf x1) (dstOf x1) x3 := by
  funext i
  obtain ⟨n, c, rfl⟩ : ∃ (n : Fin 50000) (c : Fin 128), i = ix2 n c := ⟨i 0, i 1, eq_ix2 i⟩
  rw [val_main_v46_apply, ref_v43_at, ref_v45_at]
  rfl

theorem ref_v47 (x0 : S50000x128.Idx → EReal) (x1 : IVec S2x1600000 32) (x2 : S128x128.Idx → EReal)
    (x3 : S128.Idx → EReal) :
    val_main_v47 (F := Ideal) x0 x1 x2 x3
      = fun i => max (convRef (C := 128) (prodI (K := 128) (C := 128) x0 x2) (dinvOf (F := Ideal) x1)
          (srcOf x1) (dstOf x1) x3 i) 0 := by
  funext i
  rw [val_main_v47_apply, ref_v46, val_main_call1_v0_apply, val_main_call1_cst_apply]
  show max _ (Ideal.ofBits .f32 0x00000000#32) = _
  rw [Ideal.ofBits_zero_f32]

/-! ## The second layer, over the first layer's output H and the dense product Z -/

theorem ref_v48 (x0 : S50000x128.Idx → EReal) (x1 : IVec S2x1600000 32) (x2 : S128x128.Idx → EReal)
    (x3 : S128.Idx → EReal) (x4 : S128x64.Idx → EReal) (H : S50000x128.Idx → EReal)
    (hH : val_main_v47 (F := Ideal) x0 x1 x2 x3 = H) :
    val_main_v48 (F := Ideal) x0 x1 x2 x3 x4 = prodI (K := 128) (C := 64) H x4 := by
  funext i
  rw [val_main_v48_apply, hH]
  refine Finset.sum_congr rfl fun k _ => ?_
  have hl : lidx_main_v48 i k = ix2 (i 0) k := funext fun a => by
    match a with
    | ⟨0, _⟩ => rfl
    | ⟨1, _⟩ => rfl
  have hr : ridx_main_v48 i k = ix2 k (i 1) := funext fun a => by
    match a with
    | ⟨0, _⟩ => rfl
    | ⟨1, _⟩ => rfl
  exact congrArg₂ (fun a b : EReal => a * b) (congrArg H hl) (congrArg x4 hr)

section Layer2

variable (x0 : S50000x128.Idx → EReal) (x1 : IVec S2x1600000 32) (x2 : S128x128.Idx → EReal)
  (x3 : S128.Idx → EReal) (x4 : S128x64.Idx → EReal) (x5 : S64.Idx → EReal) (Z : S50000x64.Idx → EReal)
  (hZ : val_main_v48 (F := Ideal) x0 x1 x2 x3 x4 = Z)

include hZ in
theorem ref_v55_at (e : Fin 1650000) (c : Fin 64) :
    val_main_v55 (F := Ideal) x0 x1 x2 x3 x4 (ix2 e c) = Z (ix2 (rowOf (srcOf x1) e) c) := by
  unfold val_main_v55
  refine (gather_rows_apply (N := 50000) (E := 1650000) (C := 64) (by decide)
    Cert.ReferenceIdeal.Gen.gather_S50000x64_S1650000x1_S1650000x64_1_0_n_n_0_1_164_wf
    (val_main_v48 (F := Ideal) x0 x1 x2 x3 x4) (val_main_v54 (F := Ideal) x1) e c).trans ?_
  rw [ref_v54_at, hZ]
  rfl

theorem ref_v57_at (e : Fin 1650000) (c : Fin 64) :
    val_main_v57 (F := Ideal) x1 (ix2 e c) = val_main_v29 (F := Ideal) x1 (ix1 e) := by
  rw [val_main_v57_apply, val_main_v56_apply]
  exact congrArg (val_main_v29 (F := Ideal) x1) (funext fun a => by match a with | ⟨0, _⟩ => rfl)

include hZ in
theorem ref_v58_at (e : Fin 1650000) (c : Fin 64) :
    val_main_v58 (F := Ideal) x0 x1 x2 x3 x4 (ix2 e c)
      = Z (ix2 (rowOf (srcOf x1) e) c) * edgeNorm (dinvOf (F := Ideal) x1) (srcOf x1) (dstOf x1) e := by
  rw [val_main_v58_apply, ref_v55_at x0 x1 x2 x3 x4 Z hZ, ref_v57_at, ref_v29_at]
  rfl

theorem ref_v59_at (i : S50000x64.Idx) : val_main_v59 (F := Ideal) i = 0 := by
  rw [val_main_v59_apply, val_main_cst_11_apply]
  exact Ideal.ofBits_zero_f32

include hZ in
theorem ref_v61_at (n : Fin 50000) (c : Fin 64) :
    val_main_v61 (F := Ideal) x0 x1 x2 x3 x4 (ix2 n c)
      = ∑ e ∈ lands (dstOf x1) n, Z (ix2 (rowOf (srcOf x1) e) c)
          * edgeNorm (dinvOf (F := Ideal) x1) (srcOf x1) (dstOf x1) e := by
  unfold val_main_v61
  refine (scatterAdd_rows_apply (N := 50000) (E := 1650000) (C := 64)
    Cert.ReferenceIdeal.Gen.scatter_S50000x64_S1650000x1_S1650000x64_1_0_0_1_wf
    (val_main_v59 (F := Ideal)) (val_main_v60 (F := Ideal) x1) (val_main_v58 (F := Ideal) x0 x1 x2 x3 x4) n c).trans ?_
  rw [ref_v59_at, zero_add]
  unfold lands
  refine Finset.sum_congr (Finset.filter_congr fun e _ => ?_) fun e _ => ref_v58_at x0 x1 x2 x3 x4 Z hZ e c
  rw [ref_v60_at]

theorem ref_v63_at (i : S50000x64.Idx) :
    val_main_v63 (F := Ideal) x5 i = x5 (ix1 (i 1)) := by
  rw [val_main_v63_apply, val_main_v62_apply]
  exact congrArg x5 (funext fun a => by match a with | ⟨0, _⟩ => rfl)

include hZ in
theorem ref_v64 :
    val_main_v64 (F := Ideal) x0 x1 x2 x3 x4 x5
      = convRef (C := 64) Z (dinvOf (F := Ideal) x1) (srcOf x1) (dstOf x1) x5 := by
  funext i
  obtain ⟨n, c, rfl⟩ : ∃ (n : Fin 50000) (c : Fin 64), i = ix2 n c := ⟨i 0, i 1, eq_ix2 i⟩
  rw [val_main_v64_apply, ref_v61_at x0 x1 x2 x3 x4 Z hZ, ref_v63_at]
  rfl

end Layer2

/-! ## The row-wise log-softmax, over the second layer's output Y -/

/-- The word of −∞ is the least extended real, so a maximum with it is the other side. -/
theorem ref_max_neginf (a : EReal) : max (Ideal.ofBits .f32 0xFF800000#32) a = a := by
  simp [Ideal.ofBits, Ideal.ieee]

section Softmax

variable (x0 : S50000x128.Idx → EReal) (x1 : IVec S2x1600000 32) (x2 : S128x128.Idx → EReal)
  (x3 : S128.Idx → EReal) (x4 : S128x64.Idx → EReal) (x5 : S64.Idx → EReal) (Y : S50000x64.Idx → EReal)
  (hY : val_main_v64 (F := Ideal) x0 x1 x2 x3 x4 x5 = Y)

include hY in
theorem ref_c2v0_at (n : Fin 50000) :
    val_main_call2_v0 (F := Ideal) x0 x1 x2 x3 x4 x5 (ix1 n) = rowMax Y n := by
  unfold val_main_call2_v0
  rw [hY]
  have hR : (⟨2, ![50000, 64]⟩ : Shape).Reduces [1] (⟨1, ![50000]⟩ : Shape) := by decide
  refine (Host.reduce_eq_fold_single (α := Ideal .f32) (FloatOps.maximumf (F := Ideal) (φ := .f32)) Y _
    Cert.ReferenceIdeal.Gen.reducesTo_S50000x64_S50000_d1 hR Cert.ReferenceIdeal.Gen.h_S_ (ix1 n)).trans ?_
  have hf : (Y ∘ hR.lift (ix1 n)) = fun k : Fin 64 => Y (ix2 n k) :=
    funext fun k => congrArg Y (funext fun c => Fin.ext (by
      match c with
      | ⟨0, _⟩ => rfl
      | ⟨1, _⟩ => rfl))
  exact congrArg (fun f => Finset.fold max (Ideal.ofBits .f32 0xFF800000#32) f (Finset.univ : Finset (Fin 64))) hf

include hY in
theorem ref_c2v2_at (n : Fin 50000) :
    val_main_call2_v2 (F := Ideal) x0 x1 x2 x3 x4 x5 (ix1 n) = rowMax Y n := by
  rw [val_main_call2_v2_apply, ref_c2v0_at x0 x1 x2 x3 x4 x5 Y hY, val_main_call2_v1_apply, val_main_call2_cst_0_apply]
  exact ref_max_neginf _

include hY in
theorem ref_c2v4_at (i : S50000x64.Idx) :
    val_main_call2_v4 (F := Ideal) x0 x1 x2 x3 x4 x5 i = rowMax Y (i 0) := by
  rw [val_main_call2_v4_apply, val_main_call2_v3_apply]
  refine Eq.trans (congrArg (val_main_call2_v2 (F := Ideal) x0 x1 x2 x3 x4 x5) (?_ : _ = ix1 (n := 50000) (i 0)))
    (ref_c2v2_at x0 x1 x2 x3 x4 x5 Y hY (i 0))
  exact funext fun a => by match a with | ⟨0, _⟩ => rfl

include hY in
theorem ref_c2v5_at (i : S50000x64.Idx) :
    val_main_call2_v5 (F := Ideal) x0 x1 x2 x3 x4 x5 i = Y i - rowMax Y (i 0) := by
  rw [val_main_call2_v5_apply, ref_c2v4_at x0 x1 x2 x3 x4 x5 Y hY, hY]
  rfl

include hY in
theorem ref_c2v7_at (n : Fin 50000) :
    val_main_call2_v7 (F := Ideal) x0 x1 x2 x3 x4 x5 (ix1 n)
      = ∑ k : Fin 64, Ideal.exp (Y (ix2 n k) - rowMax Y n) := by
  rw [val_main_call2_v7_apply, val_main_call2_cst_1_apply]
  show Ideal.ofBits .f32 0x00000000#32 + _ = _
  rw [Ideal.ofBits_zero_f32, zero_add]
  refine Finset.sum_congr rfl fun k _ => ?_
  have hk : idx_main_call2_v7 (ix1 n) k = ix2 n k := funext fun a => by
    match a with
    | ⟨0, _⟩ => rfl
    | ⟨1, _⟩ => rfl
  rw [val_main_call2_v6_apply, Ideal.hostUnary_exp_def, hk, ref_c2v5_at x0 x1 x2 x3 x4 x5 Y hY]

include hY in
theorem ref_c2v10_at (i : S50000x64.Idx) :
    val_main_call2_v10 (F := Ideal) x0 x1 x2 x3 x4 x5 i
      = Ideal.log (∑ k : Fin 64, Ideal.exp (Y (ix2 (i 0) k) - rowMax Y (i 0))) := by
  rw [val_main_call2_v10_apply, val_main_call2_v9_apply, val_main_call2_v8_apply, Ideal.hostUnary_log_def]
  have hi : idx_main_call2_v8 (idx_main_call2_v10 i) = ix1 (n := 50000) (i 0) := funext fun a => by
    match a with
    | ⟨0, _⟩ => rfl
  exact congrArg Ideal.log ((congrArg (val_main_call2_v7 (F := Ideal) x0 x1 x2 x3 x4 x5) hi).trans
    (ref_c2v7_at x0 x1 x2 x3 x4 x5 Y hY (i 0)))

include hY in
theorem ref_v65 :
    val_main_v65 (F := Ideal) x0 x1 x2 x3 x4 x5 = logSoftmaxRows Y := by
  funext i
  rw [val_main_v65_apply, ref_c2v5_at x0 x1 x2 x3 x4 x5 Y hY, ref_c2v10_at x0 x1 x2 x3 x4 x5 Y hY]
  rfl

end Softmax

/-! ## The whole chain -/

theorem ref_value (x0 : S50000x128.Idx → EReal) (x1 : IVec S2x1600000 32) (x2 : S128x128.Idx → EReal) (x3 : S128.Idx → EReal)
    (x4 : S128x64.Idx → EReal) (x5 : S64.Idx → EReal) :
    Cert.ReferenceIdeal.ReadP.val_main_v65 (F := Ideal) x0 x1 x2 x3 x4 x5
      = refOut x0 (srcOf x1) (dstOf x1) (dinvOf (F := Ideal) x1) x2 x3 x4 x5 :=
  ref_v65 x0 x1 x2 x3 x4 x5 _
    (ref_v64 x0 x1 x2 x3 x4 x5 _ (ref_v48 x0 x1 x2 x3 x4 _ (ref_v47 x0 x1 x2 x3)))

end Cert.Gcn

end
-- ==== Proof.lean ====
/-
  A two-layer graph convolution with symmetric normalisation: the kernel program against its jnp reference.

  Both programs build the edge list (the columns of `edge_index`, then one self loop per node), the degree `deg` of
  every node and `dinv = deg ^ (-1/2)` (zero where the degree is not positive) by the same host lines. One layer of the
  reference sends a node matrix `H` to
      out (n, c) = ∑ over the edges e landing on n of  (H·W) (row e, c) · (dinv (row e) · dinv (dst e))  + b c,
  gathering the rows `row e` the source words pick and adding them into the rows the destination words land on; a
  rectified-linear step lies between the two layers and a row-wise log-softmax after the second. The kernel program
  computes `(H·W) · dinv` row by row in a pallas_call (blocks of 2000 rows), gathers and adds those rows on the host,
  and multiplies the sum by `dinv n` (adding the bias, and the next step) in the next pallas_call.

  On the extended reals a change of float format is the identity, so the two are compared as exact functions. An edge
  that lands on node `n` has a destination word in the node range, so the reference's `dinv (dst e)` is `dinv n`; the
  products regroup by associativity; and `(∑ f e) · d = ∑ f e · d` holds for ANY extended-real summands once `0 ≤ d`
  and `d ≠ ⊤` — which `dinv n` is, being zero or the inverse square root of a positive count. So the two results are
  one function of the arguments, with no use of the inputs' finiteness.

  The parts: `Spec` (the functions both sides are read against), `KernelRun` (the kernel program's run with its result
  named at the last segment boundary), `KernelFold` (that boundary read back through the host lines and the three
  pallas_calls), `Region0/1/2` (what each pallas_call leaves in its output array), `AggRead` (the neighbour sum and
  `dinv` at an index), `RefFold` and `RefValue` (the reference's run and its result as the Spec's function),
  `Algebra` (the two functions are equal).
-/
import proofs.«110948_j44968307589409_2_alg».proof.Defs
import proofs.«110948_j44968307589409_2_alg».proof.Proof.Gen.Kernel
import proofs.«110948_j44968307589409_2_alg».proof.Proof.Gen.Kernel.Skeleton
import proofs.«110948_j44968307589409_2_alg».proof.Proof.Gen.Kernel.Launch
import proofs.«110948_j44968307589409_2_alg».proof.Proof.Gen.Kernel.Points
import proofs.«110948_j44968307589409_2_alg».proof.Proof.Gen.Kernel.Frame
import proofs.«110948_j44968307589409_2_alg».proof.Proof.Gen.KernelIdeal
import proofs.«110948_j44968307589409_2_alg».proof.Proof.Gen.KernelIdeal.Skeleton
import proofs.«110948_j44968307589409_2_alg».proof.Proof.Gen.KernelIdeal.Launch
import proofs.«110948_j44968307589409_2_alg».proof.Proof.Gen.KernelIdeal.Points
import proofs.«110948_j44968307589409_2_alg».proof.Proof.Gen.KernelIdeal.Frame
import proofs.«110948_j44968307589409_2_alg».proof.Proof.Gen.ReferenceIdeal
import proofs.«110948_j44968307589409_2_alg».proof.Proof.Gen.Pre_finite_inputs
import proofs.«110948_j44968307589409_2_alg».proof.Proof.Spec
import proofs.«110948_j44968307589409_2_alg».proof.Proof.KernelRun
import proofs.«110948_j44968307589409_2_alg».proof.Proof.KernelFold
import proofs.«110948_j44968307589409_2_alg».proof.Proof.Region0
import proofs.«110948_j44968307589409_2_alg».proof.Proof.Region1
import proofs.«110948_j44968307589409_2_alg».proof.Proof.Region2
import proofs.«110948_j44968307589409_2_alg».proof.Proof.AggRead
import proofs.«110948_j44968307589409_2_alg».proof.Proof.Algebra
import proofs.«110948_j44968307589409_2_alg».proof.Proof.RefFold
import proofs.«110948_j44968307589409_2_alg».proof.Proof.RefValue
import Idealize.ShloMosaic.Adequacy
import Idealize.ShloMosaic.Init

noncomputable section

namespace Cert.Proof

open Idealize.ShloMosaic Idealize.ShloMosaic.ValueIdx Idealize.ShloMosaic.TcCoe Idealize.SL.Sem Cert.Gcn

/-- The word-level kernel program runs and keeps its arguments. -/
theorem frame_kernel : Cert.frame_Kernel := fun m ρ _ => Cert.Kernel.Gen.frame m ρ
/-- So does its reading on the extended reals. -/
theorem frame_kernelIdeal : Cert.frame_KernelIdeal := fun m ρ _ => Cert.KernelIdeal.Gen.frame m ρ
/-- The reference runs and keeps its arguments: its run with the result dropped. -/
theorem frame_referenceIdeal : Cert.frame_ReferenceIdeal := fun m ρ _ =>
  (θ_run Cert.ReferenceIdeal.defs _ _).mono (fun _ h c => (h c).2) (Cert.Gcn.ref_run (F := Ideal) m ρ)

/-- The idealisation rewrote no operation. -/
theorem preserves : Cert.preserves_Kernel_KernelIdeal := trivial

section KernelValue
open Cert.KernelIdeal
/-- The kernel program's result array at the last boundary, as the one function of the arguments: the three
    pallas_calls' whole-array functions composed with the two neighbour sums, the neighbour sums read as sums over
    the edges landing on a node. -/
theorem kernel_value (m : (ℓ : Loc nD τ sig) → Buf (Elt Ideal) ℓ) (ρ : Dev nD → PrngReg) (c : Dev nD) :
    Cert.KernelIdeal.Gen.W8 m ρ c (Proc.devRef .tc main_v42)
      = kernelOut (m ((c : Thread nD τ).loc main_arg0)) (srcOf (m ((c : Thread nD τ).loc main_arg1))) (dstOf (m ((c : Thread nD τ).loc main_arg1)))
          (dinvOf (F := Ideal) (m ((c : Thread nD τ).loc main_arg1))) (m ((c : Thread nD τ).loc main_arg2)) (m ((c : Thread nD τ).loc main_arg3))
          (m ((c : Thread nD τ).loc main_arg4)) (m ((c : Thread nD τ).loc main_arg5)) := by
  refine (fold_result (F := Ideal) m ρ c K0 K1 K2 (fun V => region0_value V c) (fun V => region1_value V c) (fun V => region2_value V c)).trans ?_
  rw [agg64_eq, agg128_eq]
  rfl
end KernelValue

/-- On the extended reals the two programs end with the same result array: the kernel program's is `kernelOut` of the
    arguments, the reference's is `refOut` of the same arguments, and the two are one function because `dinv` is a
    nonnegative real at every node. -/
theorem algebraic : Cert.algebraic_KernelIdeal_ReferenceIdeal := by
  intro m ρ m' ρ' _ hagree
  refine ⟨fun c => kernelOut (m ((c.tc : Thread Cert.KernelIdeal.nD Cert.KernelIdeal.τ).loc Cert.KernelIdeal.main_arg0))
      (srcOf (m ((c.tc : Thread Cert.KernelIdeal.nD Cert.KernelIdeal.τ).loc Cert.KernelIdeal.main_arg1)))
      (dstOf (m ((c.tc : Thread Cert.KernelIdeal.nD Cert.KernelIdeal.τ).loc Cert.KernelIdeal.main_arg1)))
      (dinvOf (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (kernel_value m ρ c), (h c).2⟩)
      (Cert.Gcn.run_named (F := Ideal) m ρ)
  · refine (θ_run Cert.ReferenceIdeal.defs _ _).mono (fun r h c => ⟨(h c).1.trans ?_, (h c).2⟩)
      (Cert.Gcn.ref_run (F := Ideal) m' ρ')
    rw [(hagree c).1, (hagree c).2.1, (hagree c).2.2.1, (hagree c).2.2.2.1, (hagree c).2.2.2.2.1, (hagree c).2.2.2.2.2]
    exact (ref_value _ _ _ _ _ _).trans (kernelOut_eq_refOut _ _ _ _ _ _ _ _ (dinv_nonneg _)).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
